-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S500000x16 : Shape := ⟨2, ![500000, 16]⟩
abbrev S500x2048 : Shape := ⟨2, ![500, 2048]⟩
abbrev S500000 : Shape := ⟨1, ![500000]⟩
abbrev S50000 : Shape := ⟨1, ![50000]⟩
abbrev S64x96 : Shape := ⟨2, ![64, 96]⟩
abbrev S96 : Shape := ⟨1, ![96]⟩
abbrev S16x64 : Shape := ⟨2, ![16, 64]⟩
abbrev S64 : Shape := ⟨1, ![64]⟩
abbrev S2048x128 : Shape := ⟨2, ![2048, 128]⟩
abbrev S128 : Shape := ⟨1, ![128]⟩
abbrev S288x512 : Shape := ⟨2, ![288, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S500x2048 : S_.BroadcastsInDim S500x2048 (![] : Fin 0 → Fin S500x2048.rank)
  reducesTo_S500x2048_S_d0_1 : S500x2048.ReducesTo [0, 1] S_
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S288x512 : S_.BroadcastsInDim S288x512 (![] : Fin 0 → Fin S288x512.rank)
  reducesTo_S288x512_S_d0_1 : S288x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_arg21 : FVec F S256 .f32) (main_v83 : IVec S_ 1) (main_v84 : FVec F S512x256 .f32) (main_cst_32 : FVec F S_ .f32) : IVec S_ 1 :=
  let main_v85 : FVec F S512x256 .f32 := broadcastInDim S512x256 ![] bcast_S_S512x256 main_cst_32
  let main_v86 : IVec S512x256 1 := cmpf .olt main_v84 main_v85
  let main_c_33 : IVec S_ 1 := constantI S_ 1 1#1
  let main_v87 : IVec S_ 1 := (fun x v => Host.reduce IntOp.andi x v reducesTo_S512x256_S_d0_1 h_S_) main_v86 main_c_33
  let main_v88 : IVec S_ 1 := andi main_v83 main_v87
  let main_v89 : FVec F S256 .f32 := Host.absf main_arg21
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  main_v93

def fn_part4 {F : FTy → Type} [FloatOps F] (main_arg17 : FVec F S512 .f32) (main_arg18 : FVec F S512x512 .f32) (main_arg19 : FVec F S512 .f32) (main_arg20 : FVec F S512x256 .f32) (main_arg21 : FVec F S256 .f32) (main_v63 : IVec S_ 1) (main_v67 : IVec S_ 1) : IVec S_ 1 :=
  let main_v68 : IVec S_ 1 := andi main_v63 main_v67
  let main_v69 : FVec F S512 .f32 := Host.absf main_arg17
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg18
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg19
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x256 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S128 .f32) (main_arg15 : FVec F S128 .f32) (main_arg16 : FVec F S288x512 .f32) (main_arg17 : FVec F S512 .f32) (main_arg18 : FVec F S512x512 .f32) (main_arg19 : FVec F S512 .f32) (main_arg20 : FVec F S512x256 .f32) (main_arg21 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S288x512 .f32 := Host.absf main_arg16
  let main_cst_24 : FVec F S_ .f32 := constant S_ .f32 0x7F800000#32
  let main_v65 : FVec F S288x512 .f32 := broadcastInDim S288x512 ![] bcast_S_S288x512 main_cst_24
  let main_v66 : IVec S288x512 1 := cmpf .olt main_v64 main_v65
  let main_c_25 : IVec S_ 1 := constantI S_ 1 1#1
  let main_v67 : IVec S_ 1 := (fun x v => Host.reduce IntOp.andi x v reducesTo_S288x512_S_d0_1 h_S_) main_v66 main_c_25
  fn_part4 (F := F) main_arg17 main_arg18 main_arg19 main_arg20 main_arg21 main_v63 main_v67

def fn_part2 {F : FTy → Type} [FloatOps F] (main_arg10 : FVec F S2048x128 .f32) (main_arg11 : FVec F S128 .f32) (main_arg12 : FVec F S128 .f32) (main_arg13 : FVec F S128 .f32) (main_arg14 : FVec F S128 .f32) (main_arg15 : FVec F S128 .f32) (main_arg16 : FVec F S288x512 .f32) (main_arg17 : FVec F S512 .f32) (main_arg18 : FVec F S512x512 .f32) (main_arg19 : FVec F S512 .f32) (main_arg20 : FVec F S512x256 .f32) (main_arg21 : FVec F S256 .f32) (main_v33 : IVec S_ 1) : IVec S_ 1 :=
  let main_v34 : FVec F S2048x128 .f32 := Host.absf main_arg10
  let main_cst_12 : FVec F S_ .f32 := constant S_ .f32 0x7F800000#32
  let main_v35 : FVec F S2048x128 .f32 := broadcastInDim S2048x128 ![] bcast_S_S2048x128 main_cst_12
  let main_v36 : IVec S2048x128 1 := cmpf .olt main_v34 main_v35
  let main_c_13 : IVec S_ 1 := constantI S_ 1 1#1
  let main_v37 : IVec S_ 1 := (fun x v => Host.reduce IntOp.andi x v reducesTo_S2048x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_v48 main_v49 main_v50

def fn_part1 {F : FTy → Type} [FloatOps F] (main_arg7 : FVec F S96 .f32) (main_arg8 : FVec F S16x64 .f32) (main_arg9 : FVec F S64 .f32) (main_arg10 : FVec F S2048x128 .f32) (main_arg11 : FVec F S128 .f32) (main_arg12 : FVec F S128 .f32) (main_arg13 : FVec F S128 .f32) (main_arg14 : FVec F S128 .f32) (main_arg15 : FVec F S128 .f32) (main_arg16 : FVec F S288x512 .f32) (main_arg17 : FVec F S512 .f32) (main_arg18 : FVec F S512x512 .f32) (main_arg19 : FVec F S512 .f32) (main_arg20 : FVec F S512x256 .f32) (main_arg21 : FVec F S256 .f32) (main_v13 : IVec S_ 1) (main_v16 : IVec S64x96 1) : IVec S_ 1 :=
  let main_c_5 : IVec S_ 1 := constantI S_ 1 1#1
  let main_v17 : IVec S_ 1 := (fun x v => Host.reduce IntOp.andi x v reducesTo_S64x96_S_d0_1 h_S_) main_v16 main_c_5
  let main_v18 : IVec S_ 1 := andi main_v13 main_v17
  let main_v19 : FVec F S96 .f32 := Host.absf main_arg7
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S16x64 .f32 := Host.absf main_arg8
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S50000x64 .f32) (main_arg1 : FVec F S500000x16 .f32) (main_arg2 : FVec F S500x2048 .f32) (main_arg3 : IVec S500000 32) (main_arg4 : IVec S500000 32) (main_arg5 : IVec S50000 32) (main_arg6 : FVec F S64x96 .f32) (main_arg7 : FVec F S96 .f32) (main_arg8 : FVec F S16x64 .f32) (main_arg9 : FVec F S64 .f32) (main_arg10 : FVec F S2048x128 .f32) (main_arg11 : FVec F S128 .f32) (main_arg12 : FVec F S128 .f32) (main_arg13 : FVec F S128 .f32) (main_arg14 : FVec F S128 .f32) (main_arg15 : FVec F S128 .f32) (main_arg16 : FVec F S288x512 .f32) (main_arg17 : FVec F S512 .f32) (main_arg18 : FVec F S512x512 .f32) (main_arg19 : FVec F S512 .f32) (main_arg20 : FVec F S512x256 .f32) (main_arg21 : FVec F S256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S500000x16 .f32 := Host.absf main_arg1
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S500x2048 .f32 := Host.absf main_arg2
  let main_cst_2 : FVec F S_ .f32 := constant S_ .f32 0x7F800000#32
  let main_v10 : FVec F S500x2048 .f32 := broadcastInDim S500x2048 ![] bcast_S_S500x2048 main_cst_2
  let main_v11 : IVec S500x2048 1 := cmpf .olt main_v9 main_v10
  let main_c_3 : IVec S_ 1 := constantI S_ 1 1#1
  let main_v12 : IVec S_ 1 := (fun x v => Host.reduce IntOp.andi x v reducesTo_S500x2048_S_d0_1 h_S_) main_v11 main_c_3
  let main_v13 : IVec S_ 1 := andi main_v8 main_v12
  let main_v14 : FVec F S64x96 .f32 := Host.absf main_arg6
  let main_cst_4 : FVec F S_ .f32 := constant S_ .f32 0x7F800000#32
  let main_v15 : FVec F S64x96 .f32 := broadcastInDim S64x96 ![] bcast_S_S64x96 main_cst_4
  let main_v16 : IVec S64x96 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S500000x16 : Shape := ⟨2, ![500000, 16]⟩
abbrev S500x2048 : Shape := ⟨2, ![500, 2048]⟩
abbrev S500000 : Shape := ⟨1, ![500000]⟩
abbrev S50000 : Shape := ⟨1, ![50000]⟩
abbrev S64x96 : Shape := ⟨2, ![64, 96]⟩
abbrev S96 : Shape := ⟨1, ![96]⟩
abbrev S16x64 : Shape := ⟨2, ![16, 64]⟩
abbrev S64 : Shape := ⟨1, ![64]⟩
abbrev S2048x128 : Shape := ⟨2, ![2048, 128]⟩
abbrev S128 : Shape := ⟨1, ![128]⟩
abbrev S288x512 : Shape := ⟨2, ![288, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S50000x96 : Shape := ⟨2, ![50000, 96]⟩
abbrev S5000x64 : Shape := ⟨2, ![5000, 64]⟩
abbrev S5000x96 : Shape := ⟨2, ![5000, 96]⟩
abbrev S1x96 : Shape := ⟨2, ![1, 96]⟩
abbrev S500000x64 : Shape := ⟨2, ![500000, 64]⟩
abbrev S25000x16 : Shape := ⟨2, ![25000, 16]⟩
abbrev S25000x64 : Shape := ⟨2, ![25000, 64]⟩
abbrev S1x64 : Shape := ⟨2, ![1, 64]⟩
abbrev S_ : Shape := ⟨0, ![]⟩
abbrev S500000x1 : Shape := ⟨2, ![500000, 1]⟩
abbrev S500000x96 : Shape := ⟨2, ![500000, 96]⟩
abbrev S500000x160 : Shape := ⟨2, ![500000, 160]⟩
abbrev S50000x160 : Shape := ⟨2, ![50000, 160]⟩
abbrev S500x160 : Shape := ⟨2, ![500, 160]⟩
abbrev S50000x1 : Shape := ⟨2, ![50000, 1]⟩
abbrev S500x128 : Shape := ⟨2, ![500, 128]⟩
abbrev S1x128 : Shape := ⟨2, ![1, 128]⟩
abbrev S500x256 : Shape := ⟨2, ![500, 256]⟩
abbrev S500 : Shape := ⟨1, ![500]⟩
abbrev S500x1 : Shape := ⟨2, ![500, 1]⟩
abbrev S500x288 : Shape := ⟨2, ![500, 288]⟩
abbrev S500x512 : Shape := ⟨2, ![500, 512]⟩
abbrev S1x512 : Shape := ⟨2, ![1, 512]⟩
abbrev S1x256 : Shape := ⟨2, ![1, 256]⟩

abbrev nBuf : Space → Nat
  | .hbm => 44
  | .vmem => 29
  | .smem => 0
  | _ => 0

abbrev bufTy : (tb : Table) → Fin (tcTables nBuf tb) → BufTy
  | .hbm, ⟨0, _⟩ => ⟨S50000x64, .f32⟩
  | .hbm, ⟨1, _⟩ => ⟨S500000x16, .f32⟩
  | .hbm, ⟨2, _⟩ => ⟨S500x2048, .f32⟩
  | .hbm, ⟨3, _⟩ => ⟨S500000, .i32⟩
  | .hbm, ⟨4, _⟩ => ⟨S500000, .i32⟩
  | .hbm, ⟨5, _⟩ => ⟨S50000, .i32⟩
  | .hbm, ⟨6, _⟩ => ⟨S64x96, .f32⟩
  | .hbm, ⟨7, _⟩ => ⟨S96, .f32⟩
  | .hbm, ⟨8, _⟩ => ⟨S16x64, .f32⟩
  | .hbm, ⟨9, _⟩ => ⟨S64, .f32⟩
  | .hbm, ⟨10, _⟩ => ⟨S2048x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S288x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S512x256, .f32⟩
  | .hbm, ⟨21, _⟩ => ⟨S256, .f32⟩
  | .hbm, ⟨22, _⟩ => ⟨S50000x96, .f32⟩
  | .hbm, ⟨23, _⟩ => ⟨S500000x64, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x96, .f32⟩
  | .hbm, ⟨33, _⟩ => ⟨S500000x160, .f32⟩
  | .hbm, ⟨34, _⟩ => ⟨S_, .f32⟩
  | .hbm, ⟨35, _⟩ => ⟨S50000x160, .f32⟩
  | .hbm, ⟨36, _⟩ => ⟨S500000x1, .i32⟩
  | .hbm, ⟨37, _⟩ => ⟨S50000x160, .f32⟩
  | .hbm, ⟨38, _⟩ => ⟨S_, .f32⟩
  | .hbm, ⟨39, _⟩ => ⟨S500x160, .f32⟩
  | .hbm, ⟨40, _⟩ => ⟨S50000x1, .i32⟩
  | .hbm, ⟨41, _⟩ => ⟨S500x160, .f32⟩
  | .hbm, ⟨42, _⟩ => ⟨S500x128, .f32⟩
  | .hbm, ⟨43, _⟩ => ⟨S500x256, .f32⟩
  | .local _ .vmem, ⟨0, _⟩ => ⟨S5000x64, .f32⟩
  | .local _ .vmem, ⟨1, _⟩ => ⟨S5000x64, .f32⟩
  | .local _ .vmem, ⟨2, _⟩ => ⟨S64x96, .f32⟩
  | .local _ .vmem, ⟨3, _⟩ => ⟨S96, .f32⟩
  | .local _ .vmem, ⟨4, _⟩ => ⟨S5000x96, .f32⟩
  | .local _ .vmem, ⟨5, _⟩ => ⟨S5000x96, .f32⟩
  | .local _ .vmem, ⟨6, _⟩ => ⟨S25000x16, .f32⟩
  | .local _ .vmem, ⟨7, _⟩ => ⟨S25000x16, .f32⟩
  | .local _ .vmem, ⟨8, _⟩ => ⟨S16x64, .f32⟩
  | .local _ .vmem, ⟨9, _⟩ => ⟨S64, .f32⟩
  | .local _ .vmem, ⟨10, _⟩ => ⟨S25000x64, .f32⟩
  | .local _ .vmem, ⟨11, _⟩ => ⟨S25000x64, .f32⟩
  | .local _ .vmem, ⟨12, _⟩ => ⟨S500x2048, .f32⟩
  | .local _ .vmem, ⟨13, _⟩ => ⟨S2048x128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S500x128, .f32⟩
  | .local _ .vmem, ⟨20, _⟩ => ⟨S500x160, .f32⟩
  | .local _ .vmem, ⟨21, _⟩ => ⟨S500x128, .f32⟩
  | .local _ .vmem, ⟨22, _⟩ => ⟨S288x512, .f32⟩
  | .local _ .vmem, ⟨23, _⟩ => ⟨S512, .f32⟩
  | .local _ .vmem, ⟨24, _⟩ => ⟨S512x512, .f32⟩
  | .local _ .vmem, ⟨25, _⟩ => ⟨S512, .f32⟩
  | .local _ .vmem, ⟨26, _⟩ => ⟨S512x256, .f32⟩
  | .local _ .vmem, ⟨27, _⟩ => ⟨S256, .f32⟩
  | .local _ .vmem, ⟨28, _⟩ => ⟨S500x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg8_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem8_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S25000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S500x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S500x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S500x160 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S500x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S288x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S500x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  inb_S25000x16_S25000x16_0_0 : ∀ a, (![0, 0] : Fin 2 → Nat) a + S25000x16.size a ≤ S25000x16.size a
  h_S25000x16 : 0 < S25000x16.numel
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S25000x64 : S1x64.Broadcasts S25000x64
  inb_S25000x64_S25000x64_0_0 : ∀ a, (![0, 0] : Fin 2 → Nat) a + S25000x64.size a ≤ S25000x64.size a
  h_S25000x64 : 0 < S25000x64.numel
  bcast_S_S500000 : S_.BroadcastsInDim S500000 (![] : Fin 0 → Fin S500000.rank)
  bcast_S500000_S500000x1_0 : S500000.BroadcastsInDim S500000x1 (![0] : Fin 1 → Fin S500000x1.rank)
  concatenates_S500000x96_S500000x64_S500000x160_d1 : Shape.Concatenates [S500000x96, S500000x64] S500000x160 1
  bcast_S_S50000x160 : S_.BroadcastsInDim S50000x160 (![] : Fin 0 → Fin S50000x160.rank)
  bcast_S_S500x160 : S_.BroadcastsInDim S500x160 (![] : Fin 0 → Fin S500x160.rank)
  bcast_S50000_S50000x1_0 : S50000.BroadcastsInDim S50000x1 (![0] : Fin 1 → Fin S50000x1.rank)
  inb_S500x2048_S500x2048_0_0 : ∀ a, (![0, 0] : Fin 2 → Nat) a + S500x2048.size a ≤ S500x2048.size a
  h_S500x2048 : 0 < S500x2048.numel
  inb_S2048x128_S2048x128_0_0 : ∀ a, (![0, 0] : Fin 2 → Nat) a + S2048x128.size a ≤ S2048x128.size a
  h_S2048x128 : 0 < S2048x128.numel
  inb_S128_S128_0 : ∀ a, (![0] : Fin 1 → Nat) a + S128.size a ≤ S128.size a
  h_S128 : 0 < S128.numel
  shapeCasts_S128_S1x128 : S128.ShapeCasts S1x128
  broadcasts_S1x128_S500x128 : S1x128.Broadcasts S500x128
  inb_S500x128_S500x128_0_0 : ∀ a, (![0, 0] : Fin 2 → Nat) a + S500x128.size a ≤ S500x128.size a
  h_S500x128 : 0 < S500x128.numel
  inb_S500x160_S500x160_0_0 : ∀ a, (![0, 0] : Fin 2 → Nat) a + S500x160.size a ≤ S500x160.size a
  h_S500x160 : 0 < S500x160.numel
  shapeCasts_S500x160_S500x160 : S500x160.ShapeCasts S500x160
  reduces_S500x160_S500 : S500x160.Reduces [1] S500
  shapeCasts_S500_S500x1 : S500.ShapeCasts S500x1
  broadcasts_S500x1_S500x160 : S500x1.Broadcasts S500x160
  shapeCasts_S500x128_S500x128 : S500x128.ShapeCasts S500x128
  concatenates_S500x160_S500x128_S500x288_d1 : Shape.Concatenates [S500x160, S500x128] S500x288 1
  inb_S288x512_S288x512_0_0 : ∀ a, (![0, 0] : Fin 2 → Nat) a + S288x512.size a ≤ S288x512.size a
  h_S288x512 : 0 < S288x512.numel
  inb_S512_S512_0 : ∀ a, (![0] : Fin 1 → Nat) a + S512.size a ≤ S512.size a
  h_S512 : 0 < S512.numel
  shapeCasts_S512_S1x512 : S512.ShapeCasts S1x512
  broadcasts_S1x512_S500x512 : S1x512.Broadcasts S500x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S500x256 : S1x256.Broadcasts S500x256
  inb_S500x256_S500x256_0_0 : ∀ a, (![0, 0] : Fin 2 → Nat) a + S500x256.size a ≤ S500x256.size a
  h_S500x256 : 0 < S500x256.numel
  dot_S5000x64_S64x96_S5000x96_1_0_0_1_n_n_wf : DotDims.WF S5000x64 S64x96 S5000x96 [1] [0] [0] [1] [] []
  dot_S25000x16_S16x64_S25000x64_1_0_0_1_n_n_wf : DotDims.WF S25000x16 S16x64 S25000x64 [1] [0] [0] [1] [] []
  gather_S50000x96_S500000x1_S500000x96_1_0_n_n_0_1_196_wf : GatherDims.WF S50000x96 S500000x1 S500000x96 [1] [0] [] [0] [] 1 ![1, 96]
  scatter_S50000x160_S500000x1_S500000x160_1_0_0_1_wf : ScatterDims.WF S50000x160 S500000x1 S500000x160 [1] [0] [0] 1
  scatter_S500x160_S50000x1_S50000x160_1_0_0_1_wf : ScatterDims.WF S500x160 S50000x1 S50000x160 [1] [0] [0] 1
  dot_S500x2048_S2048x128_S500x128_1_0_0_1_n_n_wf : DotDims.WF S500x2048 S2048x128 S500x128 [1] [0] [0] [1] [] []
  dot_S500x288_S288x512_S500x512_1_0_0_1_n_n_wf : DotDims.WF S500x288 S288x512 S500x512 [1] [0] [0] [1] [] []
  dot_S500x512_S512x512_S500x512_1_0_0_1_n_n_wf : DotDims.WF S500x512 S512x512 S500x512 [1] [0] [0] [1] [] []
  dot_S500x512_S512x256_S500x256_1_0_0_1_n_n_wf : DotDims.WF S500x512 S512x256 S500x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x16.size a ≤ S500000x16.size a
  hwx1_0 : ∀ i : grid1.Coords, EltTy.bits .f32 = 32 ∨ (Rect.block (s := S500000x16) S25000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S25000x64.size a ≤ S500000x64.size a
  hwx1_3 : ∀ i : grid1.Coords, EltTy.bits .f32 = 32 ∨ (Rect.block (s := S500000x64) S25000x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S500x2048.size a ≤ S500x2048.size a
  hwx2_0 : ∀ i : grid2.Coords, EltTy.bits .f32 = 32 ∨ (Rect.block (s := S500x2048) S500x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S2048x128.size a
  hwx2_1 : ∀ i : grid2.Coords, EltTy.bits .f32 = 32 ∨ (Rect.block (s := S2048x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S500x128.size a ≤ S500x128.size a
  hwx2_7 : ∀ i : grid2.Coords, EltTy.bits .f32 = 32 ∨ (Rect.block (s := S500x128) S500x128.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S500x160.size a ≤ S500x160.size a
  hwx3_0 : ∀ i : grid3.Coords, EltTy.bits .f32 = 32 ∨ (Rect.block (s := S500x160) S500x160.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S500x128.size a ≤ S500x128.size a
  hwx3_1 : ∀ i : grid3.Coords, EltTy.bits .f32 = 32 ∨ (Rect.block (s := S500x128) S500x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S288x512.size a ≤ S288x512.size a
  hwx3_2 : ∀ i : grid3.Coords, EltTy.bits .f32 = 32 ∨ (Rect.block (s := S288x512) S288x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512.size a ≤ S512.size a
  hwx3_3 : ∀ i : grid3.Coords, EltTy.bits .f32 = 32 ∨ (Rect.block (s := S512) S512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .f32 = 32 ∨ (Rect.block (s := S512x512) S512x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512.size a ≤ S512.size a
  hwx3_5 : ∀ i : grid3.Coords, EltTy.bits .f32 = 32 ∨ (Rect.block (s := S512) S512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x256.size a ≤ S512x256.size a
  hwx3_6 : ∀ i : grid3.Coords, EltTy.bits .f32 = 32 ∨ (Rect.block (s := S512x256) S512x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256.size a ≤ S256.size a
  hwx3_7 : ∀ i : grid3.Coords, EltTy.bits .f32 = 32 ∨ (Rect.block (s := S256) S256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S500x256.size a ≤ S500x256.size a
  hwx3_8 : ∀ i : grid3.Coords, EltTy.bits .f32 = 32 ∨ (Rect.block (s := S500x256) S500x256.size (cc3_transform_8 i) (hinb3_8 i)).WholeWords (EltTy.packing .f32)

variable [Facts₀]

def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def dot_S25000x16_S16x64_S25000x64_1_0_0_1_n_n : DotDims S25000x16 S16x64 S25000x64 where
  lhsContracting := [1]
  rhsContracting := [0]
  lhsNonContracting := [0]
  rhsNonContracting := [1]
  lhsBatch := []
  rhsBatch := []
  wf := dot_S25000x16_S16x64_S25000x64_1_0_0_1_n_n_wf
def gather_S50000x96_S500000x1_S500000x96_1_0_n_n_0_1_196 : GatherDims S50000x96 S500000x1 S500000x96 where
  offsetDims := [1]
  collapsedSliceDims := [0]
  operandBatchingDims := []
  startIndicesBatchingDims := []
  startIndexMap := [0]
  indexVectorDim := 1
  sliceSizes := ![1, 96]
  wf := gather_S50000x96_S500000x1_S500000x96_1_0_n_n_0_1_196_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def scatter_S500x160_S50000x1_S50000x160_1_0_0_1 : ScatterDims S500x160 S50000x1 S50000x160 where
  updateWindowDims := [1]
  insertedWindowDims := [0]
  scatterDimsToOperandDims := [0]
  indexVectorDim := 1
  wf := scatter_S500x160_S50000x1_S50000x160_1_0_0_1_wf
def dot_S500x2048_S2048x128_S500x128_1_0_0_1_n_n : DotDims S500x2048 S2048x128 S500x128 where
  lhsContracting := [1]
  rhsContracting := [0]
  lhsNonContracting := [0]
  rhsNonContracting := [1]
  lhsBatch := []
  rhsBatch := []
  wf := dot_S500x2048_S2048x128_S500x128_1_0_0_1_n_n_wf
def dot_S500x288_S288x512_S500x512_1_0_0_1_n_n : DotDims S500x288 S288x512 S500x512 where
  lhsContracting := [1]
  rhsContracting := [0]
  lhsNonContracting := [0]
  rhsNonContracting := [1]
  lhsBatch := []
  rhsBatch := []
  wf := dot_S500x288_S288x512_S500x512_1_0_0_1_n_n_wf
def dot_S500x512_S512x512_S500x512_1_0_0_1_n_n : DotDims S500x512 S512x512 S500x512 where
  lhsContracting := [1]
  rhsContracting := [0]
  lhsNonContracting := [0]
  rhsNonContracting := [1]
  lhsBatch := []
  rhsBatch := []
  wf := dot_S500x512_S512x512_S500x512_1_0_0_1_n_n_wf
def dot_S500x512_S512x256_S500x256_1_0_0_1_n_n : DotDims S500x512 S512x256 S500x256 where
  lhsContracting := [1]
  rhsContracting := [0]
  lhsNonContracting := [0]
  rhsNonContracting := [1]
  lhsBatch := []
  rhsBatch := []
  wf := dot_S500x512_S512x256_S500x256_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S25000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S25000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S500x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S2048x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S500x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v15) S500x160.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v16) S500x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S288x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg19) S512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg20) S512x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg21) S256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v17) S500x256.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x64 : Shape := ⟨2, ![50000, 64]⟩
abbrev S500000x16 : Shape := ⟨2, ![500000, 16]⟩
abbrev S500x2048 : Shape := ⟨2, ![500, 2048]⟩
abbrev S500000 : Shape := ⟨1, ![500000]⟩
abbrev S50000 : Shape := ⟨1, ![50000]⟩
abbrev S64x96 : Shape := ⟨2, ![64, 96]⟩
abbrev S96 : Shape := ⟨1, ![96]⟩
abbrev S16x64 : Shape := ⟨2, ![16, 64]⟩
abbrev S64 : Shape := ⟨1, ![64]⟩
abbrev S2048x128 : Shape := ⟨2, ![2048, 128]⟩
abbrev S128 : Shape := ⟨1, ![128]⟩
abbrev S288x512 : Shape := ⟨2, ![288, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S50000x96 : Shape := ⟨2, ![50000, 96]⟩
abbrev S1x96 : Shape := ⟨2, ![1, 96]⟩
abbrev S500000x64 : Shape := ⟨2, ![500000, 64]⟩
abbrev S1x64 : Shape := ⟨2, ![1, 64]⟩
abbrev S_ : Shape := ⟨0, ![]⟩
abbrev S500000x1 : Shape := ⟨2, ![500000, 1]⟩
abbrev S500000x96 : Shape := ⟨2, ![500000, 96]⟩
abbrev S500000x160 : Shape := ⟨2, ![500000, 160]⟩
abbrev S50000x160 : Shape := ⟨2, ![50000, 160]⟩
abbrev S500x160 : Shape := ⟨2, ![500, 160]⟩
abbrev S50000x1 : Shape := ⟨2, ![50000, 1]⟩
abbrev S500 : Shape := ⟨1, ![500]⟩
abbrev S500x1 : Shape := ⟨2, ![500, 1]⟩
abbrev S500x128 : Shape := ⟨2, ![500, 128]⟩
abbrev S1x128 : Shape := ⟨2, ![1, 128]⟩
abbrev S500x288 : Shape := ⟨2, ![500, 288]⟩
abbrev S500x512 : Shape := ⟨2, ![500, 512]⟩
abbrev S1x512 : Shape := ⟨2, ![1, 512]⟩
abbrev S500x256 : Shape := ⟨2, ![500, 256]⟩
abbrev S1x256 : Shape := ⟨2, ![1, 256]⟩

abbrev nBuf : Space → Nat
  | .hbm => 104
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S500000x16, .f32⟩
  | .hbm, ⟨2, _⟩ => ⟨S500x2048, .f32⟩
  | .hbm, ⟨3, _⟩ => ⟨S500000, .i32⟩
  | .hbm, ⟨4, _⟩ => ⟨S500000, .i32⟩
  | .hbm, ⟨5, _⟩ => ⟨S50000, .i32⟩
  | .hbm, ⟨6, _⟩ => ⟨S64x96, .f32⟩
  | .hbm, ⟨7, _⟩ => ⟨S96, .f32⟩
  | .hbm, ⟨8, _⟩ => ⟨S16x64, .f32⟩
  | .hbm, ⟨9, _⟩ => ⟨S64, .f32⟩
  | .hbm, ⟨10, _⟩ => ⟨S2048x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S288x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S512x256, .f32⟩
  | .hbm, ⟨21, _⟩ => ⟨S256, .f32⟩
  | .hbm, ⟨22, _⟩ => ⟨S50000x96, .f32⟩
  | .hbm, ⟨23, _⟩ => ⟨S1x96, .f32⟩
  | .hbm, ⟨24, _⟩ => ⟨S50000x96, .f32⟩
  | .hbm, ⟨25, _⟩ => ⟨S50000x96, .f32⟩
  | .hbm, ⟨26, _⟩ => ⟨S500000x64, .f32⟩
  | .hbm, ⟨27, _⟩ => ⟨S1x64, .f32⟩
  | .hbm, ⟨28, _⟩ => ⟨S500000x64, .f32⟩
  | .hbm, ⟨29, _⟩ => ⟨S500000x64, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x96, .f32⟩
  | .hbm, ⟨39, _⟩ => ⟨S500000x160, .f32⟩
  | .hbm, ⟨40, _⟩ => ⟨S_, .f32⟩
  | .hbm, ⟨41, _⟩ => ⟨S50000x160, .f32⟩
  | .hbm, ⟨42, _⟩ => ⟨S500000x1, .i32⟩
  | .hbm, ⟨43, _⟩ => ⟨S50000x160, .f32⟩
  | .hbm, ⟨44, _⟩ => ⟨S_, .f32⟩
  | .hbm, ⟨45, _⟩ => ⟨S500x160, .f32⟩
  | .hbm, ⟨46, _⟩ => ⟨S50000x1, .i32⟩
  | .hbm, ⟨47, _⟩ => ⟨S500x160, .f32⟩
  | .hbm, ⟨48, _⟩ => ⟨S_, .f32⟩
  | .hbm, ⟨49, _⟩ => ⟨S500, .f32⟩
  | .hbm, ⟨50, _⟩ => ⟨S_, .f32⟩
  | .hbm, ⟨51, _⟩ => ⟨S500, .f32⟩
  | .hbm, ⟨52, _⟩ => ⟨S500, .f32⟩
  | .hbm, ⟨53, _⟩ => ⟨S500x1, .f32⟩
  | .hbm, ⟨54, _⟩ => ⟨S500x160, .f32⟩
  | .hbm, ⟨55, _⟩ => ⟨S500x160, .f32⟩
  | .hbm, ⟨56, _⟩ => ⟨S500x160, .f32⟩
  | .hbm, ⟨57, _⟩ => ⟨S_, .f32⟩
  | .hbm, ⟨58, _⟩ => ⟨S500, .f32⟩
  | .hbm, ⟨59, _⟩ => ⟨S500x1, .f32⟩
  | .hbm, ⟨60, _⟩ => ⟨S500x160, .f32⟩
  | .hbm, ⟨61, _⟩ => ⟨S500x160, .f32⟩
  | .hbm, ⟨62, _⟩ => ⟨S500x128, .f32⟩
  | .hbm, ⟨63, _⟩ => ⟨S1x128, .f32⟩
  | .hbm, ⟨64, _⟩ => ⟨S500x128, .f32⟩
  | .hbm, ⟨65, _⟩ => ⟨S500x128, .f32⟩
  | .hbm, ⟨66, _⟩ => ⟨S1x128, .f32⟩
  | .hbm, ⟨67, _⟩ => ⟨S500x128, .f32⟩
  | .hbm, ⟨68, _⟩ => ⟨S500x128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S500x128, .f32⟩
  | .hbm, ⟨75, _⟩ => ⟨S500x128, .f32⟩
  | .hbm, ⟨76, _⟩ => ⟨S1x128, .f32⟩
  | .hbm, ⟨77, _⟩ => ⟨S500x128, .f32⟩
  | .hbm, ⟨78, _⟩ => ⟨S500x128, .f32⟩
  | .hbm, ⟨79, _⟩ => ⟨S1x128, .f32⟩
  | .hbm, ⟨80, _⟩ => ⟨S500x128, .f32⟩
  | .hbm, ⟨81, _⟩ => ⟨S500x128, .f32⟩
  | .hbm, ⟨82, _⟩ => ⟨S_, .f32⟩
  | .hbm, ⟨83, _⟩ => ⟨S500x128, .f32⟩
  | .hbm, ⟨84, _⟩ => ⟨S500x128, .f32⟩
  | .hbm, ⟨85, _⟩ => ⟨S500x288, .f32⟩
  | .hbm, ⟨86, _⟩ => ⟨S500x512, .f32⟩
  | .hbm, ⟨87, _⟩ => ⟨S1x512, .f32⟩
  | .hbm, ⟨88, _⟩ => ⟨S500x512, .f32⟩
  | .hbm, ⟨89, _⟩ => ⟨S500x512, .f32⟩
  | .hbm, ⟨90, _⟩ => ⟨S_, .f32⟩
  | .hbm, ⟨91, _⟩ => ⟨S500x512, .f32⟩
  | .hbm, ⟨92, _⟩ => ⟨S500x512, .f32⟩
  | .hbm, ⟨93, _⟩ => ⟨S500x512, .f32⟩
  | .hbm, ⟨94, _⟩ => ⟨S1x512, .f32⟩
  | .hbm, ⟨95, _⟩ => ⟨S500x512, .f32⟩
  | .hbm, ⟨96, _⟩ => ⟨S500x512, .f32⟩
  | .hbm, ⟨97, _⟩ => ⟨S_, .f32⟩
  | .hbm, ⟨98, _⟩ => ⟨S500x512, .f32⟩
  | .hbm, ⟨99, _⟩ => ⟨S500x512, .f32⟩
  | .hbm, ⟨100, _⟩ => ⟨S500x256, .f32⟩
  | .hbm, ⟨101, _⟩ => ⟨S1x256, .f32⟩
  | .hbm, ⟨102, _⟩ => ⟨S500x256, .f32⟩
  | .hbm, ⟨103, _⟩ => ⟨S500x256, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_4 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_5 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call0_cst : Ref sig .tc := ⟨.hbm, 82, rfl⟩
abbrev main_call0_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call1_cst : Ref sig .tc := ⟨.hbm, 90, rfl⟩
abbrev main_call1_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call2_cst : Ref sig .tc := ⟨.hbm, 97, rfl⟩
abbrev main_call2_v0 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩

abbrev nD : Nat := 1
abbrev τ : Topo := Topo.v7x

variable {F : FTy → Type} [FloatOps F]

class Facts₀ : Prop where
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x96_S500000x64_S500000x160_d1 : Shape.Concatenates [S500000x96, S500000x64] S500000x160 1
  bcast_S_S50000x160 : S_.BroadcastsInDim S50000x160 (![] : Fin 0 → Fin S50000x160.rank)
  bcast_S_S500x160 : S_.BroadcastsInDim S500x160 (![] : Fin 0 → Fin S500x160.rank)
  bcast_S50000_S50000x1_0 : S50000.BroadcastsInDim S50000x1 (![0] : Fin 1 → Fin S50000x1.rank)
  reducesTo_S500x160_S500_d1 : S500x160.ReducesTo [1] S500
  h_S_ : 0 < S_.numel
  bcast_S_S500 : S_.BroadcastsInDim S500 (![] : Fin 0 → Fin S500.rank)
  bcast_S500_S500x1_0 : S500.BroadcastsInDim S500x1 (![0] : Fin 1 → Fin S500x1.rank)
  bcast_S500x1_S500x160_0_1 : S500x1.BroadcastsInDim S500x160 (![0, 1] : Fin 2 → Fin S500x160.rank)
  bcast_S128_S1x128_1 : S128.BroadcastsInDim S1x128 (![1] : Fin 1 → Fin S1x128.rank)
  bcast_S1x128_S500x128_0_1 : S1x128.BroadcastsInDim S500x128 (![0, 1] : Fin 2 → Fin S500x128.rank)
  bcast_S_S128 : S_.BroadcastsInDim S128 (![] : Fin 0 → Fin S128.rank)
  bcast_S_S500x128 : S_.BroadcastsInDim S500x128 (![] : Fin 0 → Fin S500x128.rank)
  concatenates_S500x160_S500x128_S500x288_d1 : Shape.Concatenates [S500x160, S500x128] S500x288 1
  bcast_S512_S1x512_1 : S512.BroadcastsInDim S1x512 (![1] : Fin 1 → Fin S1x512.rank)
  bcast_S1x512_S500x512_0_1 : S1x512.BroadcastsInDim S500x512 (![0, 1] : Fin 2 → Fin S500x512.rank)
  bcast_S_S500x512 : S_.BroadcastsInDim S500x512 (![] : Fin 0 → Fin S500x512.rank)
  bcast_S256_S1x256_1 : S256.BroadcastsInDim S1x256 (![1] : Fin 1 → Fin S1x256.rank)
  bcast_S1x256_S500x256_0_1 : S1x256.BroadcastsInDim S500x256 (![0, 1] : Fin 2 → Fin S500x256.rank)
  dot_S50000x64_S64x96_S50000x96_1_0_0_1_n_n_wf : DotDims.WF S50000x64 S64x96 S50000x96 [1] [0] [0] [1] [] []
  dot_S500000x16_S16x64_S500000x64_1_0_0_1_n_n_wf : DotDims.WF S500000x16 S16x64 S500000x64 [1] [0] [0] [1] [] []
  gather_S50000x96_S500000x1_S500000x96_1_0_n_n_0_1_196_wf : GatherDims.WF S50000x96 S500000x1 S500000x96 [1] [0] [] [0] [] 1 ![1, 96]
  scatter_S50000x160_S500000x1_S500000x160_1_0_0_1_wf : ScatterDims.WF S50000x160 S500000x1 S500000x160 [1] [0] [0] 1
  scatter_S500x160_S50000x1_S50000x160_1_0_0_1_wf : ScatterDims.WF S500x160 S50000x1 S50000x160 [1] [0] [0] 1
  dot_S500x2048_S2048x128_S500x128_1_0_0_1_n_n_wf : DotDims.WF S500x2048 S2048x128 S500x128 [1] [0] [0] [1] [] []
  dot_S500x288_S288x512_S500x512_1_0_0_1_n_n_wf : DotDims.WF S500x288 S288x512 S500x512 [1] [0] [0] [1] [] []
  dot_S500x512_S512x512_S500x512_1_0_0_1_n_n_wf : DotDims.WF S500x512 S512x512 S500x512 [1] [0] [0] [1] [] []
  dot_S500x512_S512x256_S500x256_1_0_0_1_n_n_wf : DotDims.WF S500x512 S512x256 S500x256 [1] [0] [0] [1] [] []

variable [Facts₀]

def dot_S50000x64_S64x96_S50000x96_1_0_0_1_n_n : DotDims S50000x64 S64x96 S50000x96 where
  lhsContracting := [1]
  rhsContracting := [0]
  lhsNonContracting := [0]
  rhsNonContracting := [1]
  lhsBatch := []
  rhsBatch := []
  wf := dot_S50000x64_S64x96_S50000x96_1_0_0_1_n_n_wf
def dot_S500000x16_S16x64_S500000x64_1_0_0_1_n_n : DotDims S500000x16 S16x64 S500000x64 where
  lhsContracting := [1]
  rhsContracting := [0]
  lhsNonContracting := [0]
  rhsNonContracting := [1]
  lhsBatch := []
  rhsBatch := []
  wf := dot_S500000x16_S16x64_S500000x64_1_0_0_1_n_n_wf
def gather_S50000x96_S500000x1_S500000x96_1_0_n_n_0_1_196 : GatherDims S50000x96 S500000x1 S500000x96 where
  offsetDims := [1]
  collapsedSliceDims := [0]
  operandBatchingDims := []
  startIndicesBatchingDims := []
  startIndexMap := [0]
  indexVectorDim := 1
  sliceSizes := ![1, 96]
  wf := gather_S50000x96_S500000x1_S500000x96_1_0_n_n_0_1_196_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def scatter_S500x160_S50000x1_S50000x160_1_0_0_1 : ScatterDims S500x160 S50000x1 S50000x160 where
  updateWindowDims := [1]
  insertedWindowDims := [0]
  scatterDimsToOperandDims := [0]
  indexVectorDim := 1
  wf := scatter_S500x160_S50000x1_S50000x160_1_0_0_1_wf
def dot_S500x2048_S2048x128_S500x128_1_0_0_1_n_n : DotDims S500x2048 S2048x128 S500x128 where
  lhsContracting := [1]
  rhsContracting := [0]
  lhsNonContracting := [0]
  rhsNonContracting := [1]
  lhsBatch := []
  rhsBatch := []
  wf := dot_S500x2048_S2048x128_S500x128_1_0_0_1_n_n_wf
def dot_S500x288_S288x512_S500x512_1_0_0_1_n_n : DotDims S500x288 S288x512 S500x512 where
  lhsContracting := [1]
  rhsContracting := [0]
  lhsNonContracting := [0]
  rhsNonContracting := [1]
  lhsBatch := []
  rhsBatch := []
  wf := dot_S500x288_S288x512_S500x512_1_0_0_1_n_n_wf
def dot_S500x512_S512x512_S500x512_1_0_0_1_n_n : DotDims S500x512 S512x512 S500x512 where
  lhsContracting := [1]
  rhsContracting := [0]
  lhsNonContracting := [0]
  rhsNonContracting := [1]
  lhsBatch := []
  rhsBatch := []
  wf := dot_S500x512_S512x512_S500x512_1_0_0_1_n_n_wf
def dot_S500x512_S512x256_S500x256_1_0_0_1_n_n : DotDims S500x512 S512x256 S500x256 where
  lhsContracting := [1]
  rhsContracting := [0]
  lhsNonContracting := [0]
  rhsNonContracting := [1]
  lhsBatch := []
  rhsBatch := []
  wf := dot_S500x512_S512x256_S500x256_1_0_0_1_n_n_wf

class Facts : Prop extends Facts₀ where

variable [Facts]
-- ==== Proof.KernelRun.lean ====
/-
  The idealized kernel's run with its memory named.  The program is four kernel regions around one stretch of host
  operations; the generated frame module folds the buffer contents through those five segments (launch contents,
  then each region's written-back arrays, then the host operations' results) and proves that every weakly fair
  execution terminates.  Here the same run is stated with the post "every unscoped buffer ends at the last fold",
  so that the result buffer can be read off the fold.
-/
import proofs.«138311_j32839319945356_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, and every unscoped buffer of every
    core ends at the contents the last segment leaves (`W5`). -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run with the result buffer and the twenty-two argument buffers named: the result ends at the last fold's
    contents, each argument as launched. -/
theorem run_named : θ_run defs (onTc (τ := τ) (main (F := F))) ⟨m, fun _ => 0, ρ⟩ (fun r => ∀ c : Dev nD,
      r.2.mem ((c.tc : Thread nD τ).loc main_v17) = W5 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨h c _ (mem_uc main_v17 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c),
     (h c _ (mem_uc main_arg18 (by decide))).trans (W5_main_arg18 m ρ c),
     (h c _ (mem_uc main_arg19 (by decide))).trans (W5_main_arg19 m ρ c),
     (h c _ (mem_uc main_arg20 (by decide))).trans (W5_main_arg20 m ρ c),
     (h c _ (mem_uc main_arg21 (by decide))).trans (W5_main_arg21 m ρ c)⟩)
    (run_mem m ρ)

end Cert.KernelIdeal.Whole

end
-- ==== Proof.Spec.lean ====
/-
  The reference computation, cut into its five stages, each as one function of whole arrays:

  * `node`:  node embeddings, x·W + b over the 50000 nodes;
  * `edge`:  edge embeddings, x·W + b over the 500000 edges;
  * `mol`:   message passing and pooling — each edge's message is its source node's embedding next to its own embedding;
               messages are summed into their destination nodes, and the nodes into their graphs;
  * `fp`:    the fingerprint encoder, relu(((x·W + b − mean) · rsqrt(var + ε)) · γ + β);
  * `softmax`: the row softmax exp(x − max) / Σ exp(x − max);
  * `head`:  the three-layer network on the softmax of the pooled messages joined with the fingerprint embedding.

  `whole` is their composition, `head (softmax (mol (node ..) (edge ..) ..)) (fp ..) ..` of the arguments.
-/
import proofs.«138311_j32839319945356_2_alg».proof.ReferenceIdeal
import proofs.«138311_j32839319945356_2_alg».proof.Proof.Gen.ReferenceIdeal
import Idealize.ShloMosaic.PureOps.Ideal

noncomputable section

namespace Cert.Spec

open Cert.ReferenceIdeal Cert.ReferenceIdeal.Facts₀ Cert.ReferenceIdeal.Facts Idealize.ShloMosaic Idealize.ShloMosaic.TcCoe Idealize.SL.Sem

variable {F : FTy → Type} [FloatOps F]

/-- Node embeddings: the node features times the projection, plus the bias row. -/
def node (x0 : (⟨S50000x64, .f32⟩ : BufTy).Contents (Elt F)) (x6 : (⟨S64x96, .f32⟩ : BufTy).Contents (Elt F)) (x7 : (⟨S96, .f32⟩ : BufTy).Contents (Elt F)) : (⟨S50000x96, .f32⟩ : BufTy).Contents (Elt F) :=
  addf (Host.dotGeneral dot_S50000x64_S64x96_S50000x96_1_0_0_1_n_n none x0 x6) (broadcastInDim S50000x96 ![0, 1] bcast_S1x96_S50000x96_0_1 (broadcastInDim S1x96 ![1] bcast_S96_S1x96_1 x7))

/-- Edge embeddings: the edge features times the projection, plus the bias row. -/
def edge (x1 : (⟨S500000x16, .f32⟩ : BufTy).Contents (Elt F)) (x8 : (⟨S16x64, .f32⟩ : BufTy).Contents (Elt F)) (x9 : (⟨S64, .f32⟩ : BufTy).Contents (Elt F)) : (⟨S500000x64, .f32⟩ : BufTy).Contents (Elt F) :=
  addf (Host.dotGeneral dot_S500000x16_S16x64_S500000x64_1_0_0_1_n_n none x1 x8) (broadcastInDim S500000x64 ![0, 1] bcast_S1x64_S500000x64_0_1 (broadcastInDim S1x64 ![1] bcast_S64_S1x64_1 x9))

/-- Message passing and pooling: gather each edge's source embedding (negative indices wrapped), join the edge's own
    embedding, sum into destination nodes, then sum nodes into graphs. -/
def mol (nd : (⟨S50000x96, .f32⟩ : BufTy).Contents (Elt F)) (ed : (⟨S500000x64, .f32⟩ : BufTy).Contents (Elt F)) (x3 x4 : (⟨S500000, .i32⟩ : BufTy).Contents (Elt F)) (x5 : (⟨S50000, .i32⟩ : BufTy).Contents (Elt F)) : (⟨S500x160, .f32⟩ : BufTy).Contents (Elt F) :=
  Host.scatterAdd scatter_S500x160_S50000x1_S50000x160_1_0_0_1 (broadcastInDim S500x160 ![] bcast_S_S500x160 (constant S_ .f32 0x00000000#32)) (broadcastInDim S50000x1 ![0] bcast_S50000_S50000x1_0 x5) (Host.scatterAdd scatter_S50000x160_S500000x1_S500000x160_1_0_0_1 (broadcastInDim S50000x160 ![] bcast_S_S50000x160 (constant S_ .f32 0x00000000#32)) (broadcastInDim S500000x1 ![0] bcast_S500000_S500000x1_0 x4) (concatenate S500000x160 1 [⟨S500000x96, (Host.gather gather_S50000x96_S500000x1_S500000x96_1_0_n_n_0_1_196 nd (broadcastInDim S500000x1 ![0] bcast_S500000_S500000x1_0 (select (cmpi .slt x3 (broadcastInDim S500000 ![] bcast_S_S500000 (constantI S_ 32 0#32))) (addi x3 (broadcastInDim S500000 ![] bcast_S_S500000 (constantI S_ 32 50000#32))) x3)))⟩, ⟨S500000x64, ed⟩] concatenates_S500000x96_S500000x64_S500000x160_d1))

/-- The fingerprint encoder: a linear layer, batch normalisation with the running statistics, and a relu. -/
def fp (x2 : (⟨S500x2048, .f32⟩ : BufTy).Contents (Elt F)) (x10 : (⟨S2048x128, .f32⟩ : BufTy).Contents (Elt F)) (x11 x12 x13 x14 x15 : (⟨S128, .f32⟩ : BufTy).Contents (Elt F)) : (⟨S500x128, .f32⟩ : BufTy).Contents (Elt F) :=
  maximumf (addf (mulf (mulf (subf (addf (Host.dotGeneral dot_S500x2048_S2048x128_S500x128_1_0_0_1_n_n none x2 x10) (broadcastInDim S500x128 ![0, 1] bcast_S1x128_S500x128_0_1 (broadcastInDim S1x128 ![1] bcast_S128_S1x128_1 x11))) (broadcastInDim S500x128 ![0, 1] bcast_S1x128_S500x128_0_1 (broadcastInDim S1x128 ![1] bcast_S128_S1x128_1 x14))) (broadcastInDim S500x128 ![0, 1] bcast_S1x128_S500x128_0_1 (broadcastInDim S1x128 ![1] bcast_S128_S1x128_1 (Host.rsqrt (addf x15 (broadcastInDim S128 ![] bcast_S_S128 (constant S_ .f32 0x3727C5AC#32))))))) (broadcastInDim S500x128 ![0, 1] bcast_S1x128_S500x128_0_1 (broadcastInDim S1x128 ![1] bcast_S128_S1x128_1 x12))) (broadcastInDim S500x128 ![0, 1] bcast_S1x128_S500x128_0_1 (broadcastInDim S1x128 ![1] bcast_S128_S1x128_1 x13))) (broadcastInDim S500x128 ![] bcast_S_S500x128 (constant S_ .f32 0x00000000#32))

/-- The row softmax as the reference spells it. -/
def softmax (ml : (⟨S500x160, .f32⟩ : BufTy).Contents (Elt F)) : (⟨S500x160, .f32⟩ : BufTy).Contents (Elt F) :=
  Host.divf (Host.exp (subf ml (broadcastInDim S500x160 ![0, 1] bcast_S500x1_S500x160_0_1 (broadcastInDim S500x1 ![0] bcast_S500_S500x1_0 (maximumf (broadcastInDim S500 ![] bcast_S_S500 (constant S_ .f32 0xFF800000#32)) (Host.reduce FloatOps.maximumf ml (constant S_ .f32 0xFF800000#32) reducesTo_S500x160_S500_d1 h_S_)))))) (broadcastInDim S500x160 ![0, 1] bcast_S500x1_S500x160_0_1 (broadcastInDim S500x1 ![0] bcast_S500_S500x1_0 (Host.reduceAdd (Host.exp (subf ml (broadcastInDim S500x160 ![0, 1] bcast_S500x1_S500x160_0_1 (broadcastInDim S500x1 ![0] bcast_S500_S500x1_0 (maximumf (broadcastInDim S500 ![] bcast_S_S500 (constant S_ .f32 0xFF800000#32)) (Host.reduce FloatOps.maximumf ml (constant S_ .f32 0xFF800000#32) reducesTo_S500x160_S500_d1 h_S_)))))) (constant S_ .f32 0x00000000#32) reducesTo_S500x160_S500_d1 h_S_)))

/-- The three-layer network on the two joined embeddings. -/
def head (sm : (⟨S500x160, .f32⟩ : BufTy).Contents (Elt F)) (fpv : (⟨S500x128, .f32⟩ : BufTy).Contents (Elt F)) (x16 : (⟨S288x512, .f32⟩ : BufTy).Contents (Elt F)) (x17 : (⟨S512, .f32⟩ : BufTy).Contents (Elt F)) (x18 : (⟨S512x512, .f32⟩ : BufTy).Contents (Elt F)) (x19 : (⟨S512, .f32⟩ : BufTy).Contents (Elt F)) (x20 : (⟨S512x256, .f32⟩ : BufTy).Contents (Elt F)) (x21 : (⟨S256, .f32⟩ : BufTy).Contents (Elt F)) : (⟨S500x256, .f32⟩ : BufTy).Contents (Elt F) :=
  addf (Host.dotGeneral dot_S500x512_S512x256_S500x256_1_0_0_1_n_n none (maximumf (addf (Host.dotGeneral dot_S500x512_S512x512_S500x512_1_0_0_1_n_n none (maximumf (addf (Host.dotGeneral dot_S500x288_S288x512_S500x512_1_0_0_1_n_n none (concatenate S500x288 1 [⟨S500x160, sm⟩, ⟨S500x128, fpv⟩] concatenates_S500x160_S500x128_S500x288_d1) x16) (broadcastInDim S500x512 ![0, 1] bcast_S1x512_S500x512_0_1 (broadcastInDim S1x512 ![1] bcast_S512_S1x512_1 x17))) (broadcastInDim S500x512 ![] bcast_S_S500x512 (constant S_ .f32 0x00000000#32))) x18) (broadcastInDim S500x512 ![0, 1] bcast_S1x512_S500x512_0_1 (broadcastInDim S1x512 ![1] bcast_S512_S1x512_1 x19))) (broadcastInDim S500x512 ![] bcast_S_S500x512 (constant S_ .f32 0x00000000#32))) x20) (broadcastInDim S500x256 ![0, 1] bcast_S1x256_S500x256_0_1 (broadcastInDim S1x256 ![1] bcast_S256_S1x256_1 x21))

/-- The whole reference computation of the argument arrays. -/
def whole (x0 : (⟨S50000x64, .f32⟩ : BufTy).Contents (Elt F)) (x1 : (⟨S500000x16, .f32⟩ : BufTy).Contents (Elt F)) (x2 : (⟨S500x2048, .f32⟩ : BufTy).Contents (Elt F)) (x3 x4 : (⟨S500000, .i32⟩ : BufTy).Contents (Elt F)) (x5 : (⟨S50000, .i32⟩ : BufTy).Contents (Elt F))
    (x6 : (⟨S64x96, .f32⟩ : BufTy).Contents (Elt F)) (x7 : (⟨S96, .f32⟩ : BufTy).Contents (Elt F)) (x8 : (⟨S16x64, .f32⟩ : BufTy).Contents (Elt F)) (x9 : (⟨S64, .f32⟩ : BufTy).Contents (Elt F)) (x10 : (⟨S2048x128, .f32⟩ : BufTy).Contents (Elt F)) (x11 x12 x13 x14 x15 : (⟨S128, .f32⟩ : BufTy).Contents (Elt F))
    (x16 : (⟨S288x512, .f32⟩ : BufTy).Contents (Elt F)) (x17 : (⟨S512, .f32⟩ : BufTy).Contents (Elt F)) (x18 : (⟨S512x512, .f32⟩ : BufTy).Contents (Elt F)) (x19 : (⟨S512, .f32⟩ : BufTy).Contents (Elt F)) (x20 : (⟨S512x256, .f32⟩ : BufTy).Contents (Elt F)) (x21 : (⟨S256, .f32⟩ : BufTy).Contents (Elt F)) : (⟨S500x256, .f32⟩ : BufTy).Contents (Elt F) :=
  head (softmax (mol (node x0 x6 x7) (edge x1 x8 x9) x3 x4 x5)) (fp x2 x10 x11 x12 x13 x14 x15) x16 x17 x18 x19 x20 x21

end Cert.Spec

end
-- ==== Proof.SpecRun.lean ====
/-
  The reference program's run ends with its result at the composition of the five stages: the program's composed term of
  its arguments is literally that composition.
-/
import proofs.«138311_j32839319945356_2_alg».proof.Proof.RefRun
import proofs.«138311_j32839319945356_2_alg».proof.Proof.Spec

noncomputable section

namespace Cert.Spec

open Cert.ReferenceIdeal Idealize.ShloMosaic Idealize.ShloMosaic.TcCoe Idealize.SL.Sem

variable {F : FTy → Type} [FloatOps F]

set_option maxRecDepth 8192 in
/-- The reference program's composed result term is the composition of the stages. -/
theorem result_eq (m : (ℓ : Loc nD τ sig) → Buf (Elt F) ℓ) (c : Dev nD) :
    Cert.ReferenceIdeal.ValueP.res_main_v67 m c
      = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  unfold Cert.ReferenceIdeal.ValueP.res_main_v67
  rfl

end Cert.Spec

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibDenseLayer.lean ====
/-
  A dense layer, written two ways, on the extended reals.

  * `matmul_zero_eq_dotGeneral`: a plain m×k by k×n matrix product accumulated into the zero matrix is the host's
    plain product of the same matrices: both read, at (a, b), the sum over the contracted coordinate c of
    A(a, c) · B(c, b).
  * `biasRow_eq`: a length-b vector cast to a [1, b] row and repeated down a rows is the same [a, b] array as the
    host's two broadcasts (first to [1, b] along axis 1, then to [a, b]): both read, at (p, q), the vector at q.
  * `dense_apply`: the host's plain product plus the bias row, read at an entry.
  * `splat_eq`: a scalar repeated over a shape is the host's broadcast of the rank-zero constant of the same bits.
-/
import Idealize.ShloMosaic.PureOps.Ideal.Laws
import Idealize.ShloMosaic.Lib.ValueIdx
import Idealize.ShloMosaic.Lib.ValueLayout
import Idealize.ShloMosaic.Lib.Pipeline.Value
import proofs.«138311_j32839319945356_2_alg».proof.Proof.LibPlainMatmul
import proofs.«138311_j32839319945356_2_alg».proof.Proof.LibPlainDot

noncomputable section

namespace Cert.LibDenseLayer

open Idealize.ShloMosaic Idealize.ShloMosaic.ValueIdx

/-- Accumulated into zero, the plain product of an m×k by a k×n matrix is the host's plain product. -/
theorem matmul_zero_eq_dotGeneral {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32)
      = Host.dotGeneral (DotDims.plain m k n) prec A B := by
  funext i
  obtain ⟨a, b, rfl⟩ : ∃ (a : Fin m) (b : Fin n), i = ix2 a b := ⟨i 0, i 1, eq_ix2 i⟩
  rw [matmul_plain_zero_apply, hostDotGeneral_plain_apply]

/-- A dense layer at an entry: the host's plain product plus the bias row reads, at (a, b), the sum over the contracted
    coordinate c of A(a, c) · B(c, b), plus the bias at b. -/
theorem dense_apply {m k n : Nat} {φ : FTy} (prec : Option ContractPrecision)
    (A : FVec Ideal ⟨2, ![m, k]⟩ φ) (B : FVec Ideal ⟨2, ![k, n]⟩ φ) (v : FVec Ideal ⟨1, ![n]⟩ φ)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    addf (Host.dotGeneral (DotDims.plain m k n) prec A B)
        (broadcastInDim ⟨2, ![m, n]⟩ ![0, 1] g2 (broadcastInDim ⟨2, ![1, n]⟩ ![1] g1 v)) (ix2 a b)
      = (∑ c : Fin k, A (ix2 a c) * B (ix2 c b)) + v (ix1 b) := by
  show Host.dotGeneral (DotDims.plain m k n) prec A B (ix2 a b)
      + broadcastInDim ⟨2, ![m, n]⟩ ![0, 1] g2 (broadcastInDim ⟨2, ![1, n]⟩ ![1] g1 v) (ix2 a b) = _
  rw [hostDotGeneral_plain_apply]
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

variable {α : Type}

/-- A vector as a row repeated down the rows, the vector way and the host way. -/
theorem biasRow_eq {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ v h1) h2
      = broadcastInDim ⟨2, ![a, b]⟩ ![0, 1] g2 (broadcastInDim ⟨2, ![1, b]⟩ ![1] g1 v) := by
  funext i
  obtain ⟨p, q, rfl⟩ : ∃ (p : Fin a) (q : Fin b), i = ix2 p q := ⟨i 0, i 1, eq_ix2 i⟩
  rw [broadcastTo_1b_ab_apply, shapeCast_a_1a_apply]
  have hq : q.val = if b = 1 then 0 else q.val := by
    split
    · have := q.isLt; omega
    · rfl
  have hk2 : ∀ ax : Fin 2, ((ix2 (0 : Fin 1) q : (⟨2, ![1, b]⟩ : Shape).Idx) ax).val
      = if (⟨2, ![1, b]⟩ : Shape).size ax = 1 then 0 else ((ix2 p q : (⟨2, ![a, b]⟩ : Shape).Idx) ((![0, 1] : Fin 2 → Fin 2) ax)).val := fun ax =>
    match ax with
    | ⟨0, _⟩ => rfl
    | ⟨1, _⟩ => hq
  have hk1 : ∀ ax : Fin 1, ((ix1 q : (⟨1, ![b]⟩ : Shape).Idx) ax).val
      = if (⟨1, ![b]⟩ : Shape).size ax = 1 then 0 else ((ix2 (0 : Fin 1) q : (⟨2, ![1, b]⟩ : Shape).Idx) ((![1] : Fin 1 → Fin 2) ax)).val := fun ax =>
    match ax with
    | ⟨0, _⟩ => hq
  rw [broadcastInDim_apply _ g2 _ (ix2 p q) (ix2 (0 : Fin 1) q) hk2, broadcastInDim_apply _ g1 v (ix2 (0 : Fin 1) q) (ix1 q) hk1]

/-- A scalar repeated over a shape is the host's broadcast of the rank-zero constant of the same bits. -/
theorem splat_eq {F : FTy → Type} [FloatOps F] {s : Shape} {φ : FTy} (bits : BitVec φ.bits)
    (g : (⟨0, ![]⟩ : Shape).BroadcastsInDim s ![]) :
    (broadcast s (Scalar.ofBits φ bits : F φ) : FVec F s φ)
      = broadcastInDim s ![] g (constant (F := F) ⟨0, ![]⟩ φ bits) := by
  funext i
  rfl

end Cert.LibDenseLayer

end
-- ==== Proof.Region0.lean ====
/-
  The node-embedding region: the [50000, 96] array it leaves is x·W + b of the whole argument arrays.

  The grid has 10 points; point t reads rows [5000·t, 5000·t + 5000) of x and the whole of W and b, and writes back the same rows of
  the result.  A block's entry (p, q) is Σ_c x(5000·t + p, c) · W(c, q) + b(q), which is the whole product's entry at row
  5000·t + p; the 10 blocks tile the rows, so the array ends as the whole product plus the bias row.
-/
import proofs.«138311_j32839319945356_2_alg».proof.Proof.Gen.KernelIdeal.Frame
import proofs.«138311_j32839319945356_2_alg».proof.Proof.Spec
import proofs.«138311_j32839319945356_2_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

private theorem hz2 : (![0, 0] : Fin 2 → Nat) = fun _ => 0 := funext fun a => by fin_cases a <;> rfl
private theorem hz1 : (![0] : Fin 1 → Nat) = fun _ => 0 := funext fun a => by fin_cases a <;> rfl

/-- The body's stored value at an entry of the block: the block's row of x against W's column, plus the bias. -/
theorem pay0_apply (xb : Vec Ideal S5000x64 .f32) (w : Vec Ideal S64x96 .f32) (b : Vec Ideal S96 .f32) (p : Fin 5000) (q : Fin 96) :
    k0_pay1 xb w b (ix2 p q) = (∑ c : Fin 64, xb (ix2 p c) * w (ix2 c q)) + b (ix1 q) := by
  unfold k0_pay1
  show matmul (F := Ideal) dot_S5000x64_S64x96_S5000x96_1_0_0_1_n_n none xb w (constant (F := Ideal) S5000x96 .f32 0x00000000#32) (ix2 p q)
      + broadcastTo S5000x96 (shapeCast S1x96 b shapeCasts_S96_S1x96) broadcasts_S1x96_S5000x96 (ix2 p q) = _
  rw [broadcastTo_1b_ab_apply, shapeCast_a_1a_apply]
  exact congrArg (· + b (ix1 q)) (matmul_plain_zero_apply (m := 5000) (k := 64) (n := 96) none xb w p q)

/-- The reference's stage at an entry: the row of x against W's column, plus the bias. -/
theorem node_apply (x : (⟨Cert.ReferenceIdeal.S50000x64, .f32⟩ : BufTy).Contents (Elt Ideal)) (w : (⟨Cert.ReferenceIdeal.S64x96, .f32⟩ : BufTy).Contents (Elt Ideal))
    (b : (⟨Cert.ReferenceIdeal.S96, .f32⟩ : BufTy).Contents (Elt Ideal)) (r : Fin 50000) (q : Fin 96) :
    Cert.Spec.node x w b (ix2 r q) = (∑ c : Fin 64, x (ix2 r c) * w (ix2 c q)) + b (ix1 q) := by
  unfold Cert.Spec.node
  exact Cert.LibDenseLayer.dense_apply (m := 50000) (k := 64) (n := 96) none x w b _ _ r q

/-- The printed index maps over the grid: x's and the result's blocks move together down the rows, W and b stay. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 9 :=
  (by decide +kernel : ∀ t : Fin grid0.N, _)

/-- Every block of rows is some point's. -/
theorem idx_onto0 : ∀ (q0 : Fin 10), ∃ t : Fin cfg0.N, win0_3.index t (0 : Fin 2) = q0.val :=
  (by decide +kernel : ∀ (q0 : Fin 10), ∃ t : Fin grid0.N, win0_3.index t (0 : Fin 2) = q0.val)

variable (V : (c : Dev nD) → (b : Ref sig .tc) → Buf (Elt Ideal) ((c : Thread nD τ).loc b))

/-- What point t writes back is block t of the whole product plus bias, of the arrays as the region finds them. -/
theorem flushed0_eq (c : Dev nD) (t : Fin cfg0.N) :
    (dat0 V c).flushed 3 t = ((cfg0.win 3).blk t).view.read (Elt Ideal) (Cert.Spec.node (V c main_arg0) (V c main_arg6) (V c main_arg7)) := by
  show (cfg0.win 3).cut (grid0.coords t) ((dat0 V c).after 3 t) = _
  rw [after0_3]
  unfold out0_3
  rw [View.canon_unit_zero hz2]
  simp only [View.ld_unit_zero (S := S5000x64) hz2, View.ld_unit_zero (S := S64x96) hz2, View.ld_unit_zero (S := S96) hz1]
  obtain ⟨e0, e1, e2, e3, e4, e5, e6⟩ := idx_facts0 t
  funext j
  obtain ⟨p, q, rfl⟩ : ∃ (p : Fin 5000) (q : Fin 96), j = ix2 p q := ⟨j 0, j 1, eq_ix2 j⟩
  show k0_pay1 (iblk0 V c 0 t) (iblk0 V c 1 t) (iblk0 V c 2 t) (ix2 p q) = _
  rw [pay0_apply]
  have hr : win0_3.index t (0 : Fin 2) * 5000 + p.val < 50000 := by have := p.isLt; omega
  have hemb : ((cfg0.win 3).blk t).view.emb (ix2 p q) = ix2 (⟨win0_3.index t (0 : Fin 2) * 5000 + p.val, hr⟩ : Fin 50000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 96 + 1 * q.val = q.val; omega
  show _ = Cert.Spec.node (V c main_arg0) (V c main_arg6) (V c main_arg7) (((cfg0.win 3).blk t).view.emb (ix2 p q))
  rw [hemb, node_apply]
  have hx : ∀ cc : Fin 64, iblk0 V c 0 t (ix2 p cc) = V c main_arg0 (ix2 (⟨win0_3.index t (0 : Fin 2) * 5000 + p.val, hr⟩ : Fin 50000) cc) := by
    intro cc
    show V c main_arg0 (((cfg0.win 0).blk t).view.emb (ix2 p cc)) = _
    refine congrArg _ (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 64 + 1 * cc.val = cc.val; omega
  have hw : ∀ cc : Fin 64, iblk0 V c 1 t (ix2 cc q) = V c main_arg6 (ix2 cc q) := by
    intro cc
    show V c main_arg6 (((cfg0.win 1).blk t).view.emb (ix2 cc q)) = _
    refine congrArg _ (funext fun a => Fin.ext ?_)
    match a with
    | ⟨0, _⟩ => show win0_1.index t (0 : Fin 2) * 64 + 1 * cc.val = cc.val; omega
    | ⟨1, _⟩ => show win0_1.index t (1 : Fin 2) * 96 + 1 * q.val = q.val; omega
  have hb : iblk0 V c 2 t (ix1 q) = V c main_arg7 (ix1 q) := by
    show V c main_arg7 (((cfg0.win 2).blk t).view.emb (ix1 q)) = _
    refine congrArg _ (funext fun a => Fin.ext ?_)
    match a with
    | ⟨0, _⟩ => show win0_2.index t (0 : Fin 1) * 96 + 1 * q.val = q.val; omega
  rw [hb]
  exact congrArg (· + V c main_arg7 (ix1 q)) (Finset.sum_congr rfl fun cc _ => by rw [hx cc, hw cc])

/-- An index of the array is in point t's block iff each coordinate is in the block's range on its axis. -/
theorem mem_blk0 (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v0).slice (win0_3.rect t)).set ↔ _
  rw [View.set_slice_whole, Rect.mem_set_unit]
  exact Iff.rfl

/-- Every entry of the result array lies in some point's block: row r in the block of point r / 5000. -/
theorem cover0 (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  obtain ⟨t, ht⟩ := idx_onto0 ⟨(i 0).val / 5000, by omega⟩
  have q0 : win0_3.index t (0 : Fin 2) = (i 0).val / 5000 := ht
  obtain ⟨e0, e1, e2, e3, e4, e5, e6⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 96 ≤ (i 1).val ∧ (i 1).val < win0_3.index t (1 : Fin 2) * 96 + 96; omega

/-- The array the region leaves: the whole product plus the bias row, of the arrays as the region finds them. -/
theorem arr0 (c : Dev nD) :
    (dat0 V c).arrAt 3 cfg0.N = Cert.Spec.node (V c main_arg0) (V c main_arg6) (V c main_arg7) :=
  (dat0 V c).arrAt_eq_of_cover 3 _ (fun t _ => flushed0_eq V c t) (cover0)

end Cert.KernelIdeal.Whole

end
-- ==== Proof.Region1.lean ====
/-
  The edge-embedding region: the [500000, 64] array it leaves is x·W + b of the whole argument arrays.

  The grid has 20 points; point t reads rows [25000·t, 25000·t + 25000) of x and the whole of W and b, and writes back the same rows of
  the result.  A block's entry (p, q) is Σ_c x(25000·t + p, c) · W(c, q) + b(q), which is the whole product's entry at row
  25000·t + p; the 20 blocks tile the rows, so the array ends as the whole product plus the bias row.
-/
import proofs.«138311_j32839319945356_2_alg».proof.Proof.Gen.KernelIdeal.Frame
import proofs.«138311_j32839319945356_2_alg».proof.Proof.Spec
import proofs.«138311_j32839319945356_2_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

private theorem hz2 : (![0, 0] : Fin 2 → Nat) = fun _ => 0 := funext fun a => by fin_cases a <;> rfl
private theorem hz1 : (![0] : Fin 1 → Nat) = fun _ => 0 := funext fun a => by fin_cases a <;> rfl

/-- The body's stored value at an entry of the block: the block's row of x against W's column, plus the bias. -/
theorem pay1_apply (xb : Vec Ideal S25000x16 .f32) (w : Vec Ideal S16x64 .f32) (b : Vec Ideal S64 .f32) (p : Fin 25000) (q : Fin 64) :
    k1_pay1 xb w b (ix2 p q) = (∑ c : Fin 16, xb (ix2 p c) * w (ix2 c q)) + b (ix1 q) := by
  unfold k1_pay1
  show matmul (F := Ideal) dot_S25000x16_S16x64_S25000x64_1_0_0_1_n_n none xb w (constant (F := Ideal) S25000x64 .f32 0x00000000#32) (ix2 p q)
      + broadcastTo S25000x64 (shapeCast S1x64 b shapeCasts_S64_S1x64) broadcasts_S1x64_S25000x64 (ix2 p q) = _
  rw [broadcastTo_1b_ab_apply, shapeCast_a_1a_apply]
  exact congrArg (· + b (ix1 q)) (matmul_plain_zero_apply (m := 25000) (k := 16) (n := 64) none xb w p q)

/-- The reference's stage at an entry: the row of x against W's column, plus the bias. -/
theorem edge_apply (x : (⟨Cert.ReferenceIdeal.S500000x16, .f32⟩ : BufTy).Contents (Elt Ideal)) (w : (⟨Cert.ReferenceIdeal.S16x64, .f32⟩ : BufTy).Contents (Elt Ideal))
    (b : (⟨Cert.ReferenceIdeal.S64, .f32⟩ : BufTy).Contents (Elt Ideal)) (r : Fin 500000) (q : Fin 64) :
    Cert.Spec.edge x w b (ix2 r q) = (∑ c : Fin 16, x (ix2 r c) * w (ix2 c q)) + b (ix1 q) := by
  unfold Cert.Spec.edge
  exact Cert.LibDenseLayer.dense_apply (m := 500000) (k := 16) (n := 64) none x w b _ _ r q

/-- The printed index maps over the grid: x's and the result's blocks move together down the rows, W and b stay. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) ≤ 19 :=
  (by decide +kernel : ∀ t : Fin grid1.N, _)

/-- Every block of rows is some point's. -/
theorem idx_onto1 : ∀ (q0 : Fin 20), ∃ t : Fin cfg1.N, win1_3.index t (0 : Fin 2) = q0.val :=
  (by decide +kernel : ∀ (q0 : Fin 20), ∃ t : Fin grid1.N, win1_3.index t (0 : Fin 2) = q0.val)

variable (V : (c : Dev nD) → (b : Ref sig .tc) → Buf (Elt Ideal) ((c : Thread nD τ).loc b))

/-- What point t writes back is block t of the whole product plus bias, of the arrays as the region finds them. -/
theorem flushed1_eq (c : Dev nD) (t : Fin cfg1.N) :
    (dat1 V c).flushed 3 t = ((cfg1.win 3).blk t).view.read (Elt Ideal) (Cert.Spec.edge (V c main_arg1) (V c main_arg8) (V c main_arg9)) := by
  show (cfg1.win 3).cut (grid1.coords t) ((dat1 V c).after 3 t) = _
  rw [after1_3]
  unfold out1_3
  rw [View.canon_unit_zero hz2]
  simp only [View.ld_unit_zero (S := S25000x16) hz2, View.ld_unit_zero (S := S16x64) hz2, View.ld_unit_zero (S := S64) hz1]
  obtain ⟨e0, e1, e2, e3, e4, e5, e6⟩ := idx_facts1 t
  funext j
  obtain ⟨p, q, rfl⟩ : ∃ (p : Fin 25000) (q : Fin 64), j = ix2 p q := ⟨j 0, j 1, eq_ix2 j⟩
  show k1_pay1 (iblk1 V c 0 t) (iblk1 V c 1 t) (iblk1 V c 2 t) (ix2 p q) = _
  rw [pay1_apply]
  have hr : win1_3.index t (0 : Fin 2) * 25000 + p.val < 500000 := by have := p.isLt; omega
  have hemb : ((cfg1.win 3).blk t).view.emb (ix2 p q) = ix2 (⟨win1_3.index t (0 : Fin 2) * 25000 + p.val, hr⟩ : Fin 500000) q := by
    funext a; apply Fin.ext
    match a with
    | ⟨0, _⟩ => show win1_3.index t (0 : Fin 2) * 25000 + 1 * p.val = win1_3.index t (0 : Fin 2) * 25000 + p.val; omega
    | ⟨1, _⟩ => show win1_3.index t (1 : Fin 2) * 64 + 1 * q.val = q.val; omega
  show _ = Cert.Spec.edge (V c main_arg1) (V c main_arg8) (V c main_arg9) (((cfg1.win 3).blk t).view.emb (ix2 p q))
  rw [hemb, edge_apply]
  have hx : ∀ cc : Fin 16, iblk1 V c 0 t (ix2 p cc) = V c main_arg1 (ix2 (⟨win1_3.index t (0 : Fin 2) * 25000 + p.val, hr⟩ : Fin 500000) cc) := by
    intro cc
    show V c main_arg1 (((cfg1.win 0).blk t).view.emb (ix2 p cc)) = _
    refine congrArg _ (funext fun a => Fin.ext ?_)
    match a with
    | ⟨0, _⟩ => show win1_0.index t (0 : Fin 2) * 25000 + 1 * p.val = win1_3.index t (0 : Fin 2) * 25000 + p.val; omega
    | ⟨1, _⟩ => show win1_0.index t (1 : Fin 2) * 16 + 1 * cc.val = cc.val; omega
  have hw : ∀ cc : Fin 16, iblk1 V c 1 t (ix2 cc q) = V c main_arg8 (ix2 cc q) := by
    intro cc
    show V c main_arg8 (((cfg1.win 1).blk t).view.emb (ix2 cc q)) = _
    refine congrArg _ (funext fun a => Fin.ext ?_)
    match a with
    | ⟨0, _⟩ => show win1_1.index t (0 : Fin 2) * 16 + 1 * cc.val = cc.val; omega
    | ⟨1, _⟩ => show win1_1.index t (1 : Fin 2) * 64 + 1 * q.val = q.val; omega
  have hb : iblk1 V c 2 t (ix1 q) = V c main_arg9 (ix1 q) := by
    show V c main_arg9 (((cfg1.win 2).blk t).view.emb (ix1 q)) = _
    refine congrArg _ (funext fun a => Fin.ext ?_)
    match a with
    | ⟨0, _⟩ => show win1_2.index t (0 : Fin 1) * 64 + 1 * q.val = q.val; omega
  rw [hb]
  exact congrArg (· + V c main_arg9 (ix1 q)) (Finset.sum_congr rfl fun cc _ => by rw [hx cc, hw cc])

/-- An index of the array is in point t's block iff each coordinate is in the block's range on its axis. -/
theorem mem_blk1 (t : Fin cfg1.N) (i : S500000x64.Idx) :
    i ∈ ((cfg1.win 3).blk t).view.set ↔ ∀ a : Fin 2, win1_3.index t a * S25000x64.size a ≤ (i a).val ∧ (i a).val < win1_3.index t a * S25000x64.size a + S25000x64.size a := by
  show i ∈ ((View.whole main_v1).slice (win1_3.rect t)).set ↔ _
  rw [View.set_slice_whole, Rect.mem_set_unit]
  exact Iff.rfl

/-- Every entry of the result array lies in some point's block: row r in the block of point r / 25000. -/
theorem cover1 (i : S500000x64.Idx) : ∃ t : Fin cfg1.N, (cfg1.win 3).flush t = true ∧ i ∈ ((cfg1.win 3).blk t).view.set := by
  have hi0 : (i 0).val < 500000 := (i 0).isLt
  have hi1 : (i 1).val < 64 := (i 1).isLt
  obtain ⟨t, ht⟩ := idx_onto1 ⟨(i 0).val / 25000, by omega⟩
  have q0 : win1_3.index t (0 : Fin 2) = (i 0).val / 25000 := ht
  obtain ⟨e0, e1, e2, e3, e4, e5, e6⟩ := idx_facts1 t
  refine ⟨t, flush1_3 t, ?_⟩
  rw [mem_blk1]
  intro a
  match a with
  | ⟨0, _⟩ => show win1_3.index t (0 : Fin 2) * 25000 ≤ (i 0).val ∧ (i 0).val < win1_3.index t (0 : Fin 2) * 25000 + 25000; omega
  | ⟨1, _⟩ => show win1_3.index t (1 : Fin 2) * 64 ≤ (i 1).val ∧ (i 1).val < win1_3.index t (1 : Fin 2) * 64 + 64; omega

/-- The array the region leaves: the whole product plus the bias row, of the arrays as the region finds them. -/
theorem arr1 (c : Dev nD) :
    (dat1 V c).arrAt 3 cfg1.N = Cert.Spec.edge (V c main_arg1) (V c main_arg8) (V c main_arg9) :=
  (dat1 V c).arrAt_eq_of_cover 3 _ (fun t _ => flushed1_eq V c t) (cover1)

end Cert.KernelIdeal.Whole

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibRowSoftmax.lean ====
/-
  Row reductions that keep their axis, written the vector way and the host way, on the extended reals.

  * `rowMax_eq`: a vector max-reduction over one axis from the accumulator -∞ is the host's max-reduce from -∞ followed
    by a maximum with the constant -∞ (what a numerically safe softmax's row maximum prints as): at every result index
    both are the fold of max over that axis's coordinates, and -∞ is neutral for max.
  * `rowSum_eq`: a vector sum-reduction over one axis from the accumulator 0 is the host's sum-reduce from 0: both are
    the sum over that axis's coordinates.
  * `column_eq`: a length-a vector cast to an [a, 1] column and repeated across b columns is the same [a, b] array as
    the host's two broadcasts (first to [a, 1] along axis 0, then to [a, b]): both read, at (p, q), the vector at p.
-/
import Idealize.ShloMosaic.PureOps.Ideal.Laws
import Idealize.ShloMosaic.Lib.ValueIdx
import Idealize.ShloMosaic.Lib.ValueLayout
import Idealize.ShloMosaic.Lib.Pipeline.Value
import proofs.«138311_j32839319945356_2_alg».proof.Proof.LibColumnCast
import proofs.«138311_j32839319945356_2_alg».proof.Proof.LibColumnBroadcast

noncomputable section

namespace Cert.LibRowSoftmax

open Idealize.ShloMosaic Idealize.ShloMosaic.ValueIdx

/-- The f32 pattern of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- A row maximum: the vector reduction from -∞ against the host's reduction from -∞ then a maximum with -∞. -/
theorem rowMax_eq {s t : Shape} {a : Fin s.rank} (src : FVec Ideal s .f32) (h : s.Reduces [a] t) (h' : s.ReducesTo [a] t)
    (hφ : FKind.Formats .f32) (hacc : (0xFF800000#32 : BitVec 32) = FKind.maximumf.neutral .f32 hφ)
    (hu : 0 < (⟨0, ![]⟩ : Shape).numel) (g : (⟨0, ![]⟩ : Shape).BroadcastsInDim t ![]) :
    multiReduction .maximumf [a] t src 0xFF800000#32 h hφ hacc
      = maximumf (broadcastInDim t ![] g (constant ⟨0, ![]⟩ .f32 0xFF800000#32))
          (Host.reduce FloatOps.maximumf src (constant ⟨0, ![]⟩ .f32 0xFF800000#32) h' hu) := by
  funext j
  rw [Ideal.multiReduction_maximumf_single]
  show _ = max (Ideal.ofBits .f32 0xFF800000#32) (Host.reduce FloatOps.maximumf src (constant ⟨0, ![]⟩ .f32 0xFF800000#32) h' hu j)
  rw [Host.reduce_eq_fold_single FloatOps.maximumf src _ h' h hu j, max_neg_inf]
  rfl

/-- A row sum: the vector reduction from 0 against the host's reduction from 0. -/
theorem rowSum_eq {s t : Shape} {a : Fin s.rank} (src : FVec Ideal s .f32) (h : s.Reduces [a] t) (h' : s.ReducesTo [a] t)
    (hφ : FKind.Formats .f32) (hacc : (0x00000000#32 : BitVec 32) = FKind.add.neutral .f32 hφ)
    (hu : 0 < (⟨0, ![]⟩ : Shape).numel) :
    multiReduction .add [a] t src 0x00000000#32 h hφ hacc
      = Host.reduceAdd src (constant ⟨0, ![]⟩ .f32 0x00000000#32) h' hu := by
  funext j
  rw [Ideal.multiReduction_add_single]
  show _ = Ideal.hostReduceAdd h' src (Ideal.ofBits .f32 0x00000000#32) j
  rw [Ideal.hostReduceAdd_single h' h, Ideal.ofBits_zero_f32, zero_add]

variable {α : Type}

/-- A vector as a column repeated across the columns, the vector way and the host way. -/
theorem column_eq {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (g1 : (⟨1, ![a]⟩ : Shape).BroadcastsInDim ⟨2, ![a, 1]⟩ ![0])
    (g2 : (⟨2, ![a, 1]⟩ : Shape).BroadcastsInDim ⟨2, ![a, b]⟩ ![0, 1]) :
    broadcastTo ⟨2, ![a, b]⟩ (shapeCast ⟨2, ![a, 1]⟩ v h1) h2
      = broadcastInDim ⟨2, ![a, b]⟩ ![0, 1] g2 (broadcastInDim ⟨2, ![a, 1]⟩ ![0] g1 v) := by
  funext i
  obtain ⟨p, q, rfl⟩ : ∃ (p : Fin a) (q : Fin b), i = ix2 p q := ⟨i 0, i 1, eq_ix2 i⟩
  rw [Cert.LibColumnBroadcast.broadcastTo_a1_ab_apply, Cert.LibColumnCast.shapeCast_a_a1_apply]
  have hp : p.val = if a = 1 then 0 else p.val := by
    split
    · have := p.isLt; omega
    · rfl
  have hk2 : ∀ ax : Fin 2, ((ix2 p (0 : Fin 1) : (⟨2, ![a, 1]⟩ : Shape).Idx) ax).val
      = if (⟨2, ![a, 1]⟩ : Shape).size ax = 1 then 0 else ((ix2 p q : (⟨2, ![a, b]⟩ : Shape).Idx) ((![0, 1] : Fin 2 → Fin 2) ax)).val := fun ax =>
    match ax with
    | ⟨0, _⟩ => hp
    | ⟨1, _⟩ => rfl
  have hk1 : ∀ ax : Fin 1, ((ix1 p : (⟨1, ![a]⟩ : Shape).Idx) ax).val
      = if (⟨1, ![a]⟩ : Shape).size ax = 1 then 0 else ((ix2 p (0 : Fin 1) : (⟨2, ![a, 1]⟩ : Shape).Idx) ((![0] : Fin 1 → Fin 2) ax)).val := fun ax =>
    match ax with
    | ⟨0, _⟩ => hp
  rw [broadcastInDim_apply _ g2 _ (ix2 p q) (ix2 p (0 : Fin 1)) hk2, broadcastInDim_apply _ g1 v (ix2 p (0 : Fin 1)) (ix1 p) hk1]

end Cert.LibRowSoftmax

end
-- ==== Proof.Region2.lean ====
/-
  The fingerprint-encoder region: one grid point, every block a whole array.  The body's stored value is, operation
  by operation, the reference's encoder: the matrix product into a zero accumulator is the host's product, a bias vector
  cast to a row and repeated down the rows is the host's two broadcasts, the reciprocal standard deviation computed on the
  [1, 128] row is the row of the one computed on the length-128 vector, and the remaining operations are the same
  entrywise ones.  So the [500, 128] array the region leaves is the reference's encoder of the arrays as the region finds them.
-/
import proofs.«138311_j32839319945356_2_alg».proof.Proof.Gen.KernelIdeal.Frame
import proofs.«138311_j32839319945356_2_alg».proof.Proof.Spec
import proofs.«138311_j32839319945356_2_alg».proof.Proof.LibDenseLayer
import proofs.«138311_j32839319945356_2_alg».proof.Proof.LibRowSoftmax
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

private theorem hz2 : (![0, 0] : Fin 2 → Nat) = fun _ => 0 := funext fun a => by fin_cases a <;> rfl
private theorem hz1 : (![0] : Fin 1 → Nat) = fun _ => 0 := funext fun a => by fin_cases a <;> rfl

/-- The body's stored value is the reference's encoder of the loaded arrays. -/
theorem pay2_eq (x : Vec Ideal S500x2048 .f32) (w : Vec Ideal S2048x128 .f32) (b vr mn gm bt : Vec Ideal S128 .f32) :
    k2_pay1 x w b vr mn gm bt = Cert.Spec.fp x w b gm bt mn vr := by
  have e1 : ∀ (A : FVec Ideal S500x2048 .f32) (B : FVec Ideal S2048x128 .f32),
      matmul dot_S500x2048_S2048x128_S500x128_1_0_0_1_n_n none (truncf .bf16 A bitsLt_bf16_f32) (truncf .bf16 B bitsLt_bf16_f32) (constant S500x128 .f32 0x00000000#32)
        = Host.dotGeneral Cert.ReferenceIdeal.dot_S500x2048_S2048x128_S500x128_1_0_0_1_n_n none A B :=
    fun A B => Cert.LibDenseLayer.matmul_zero_eq_dotGeneral (m := 500) (k := 2048) (n := 128) none A B
  have eb : ∀ v : FVec Ideal S128 .f32, broadcastTo S500x128 (shapeCast S1x128 v shapeCasts_S128_S1x128) broadcasts_S1x128_S500x128
        = broadcastInDim Cert.ReferenceIdeal.S500x128 ![0, 1] Cert.ReferenceIdeal.Facts₀.bcast_S1x128_S500x128_0_1 (broadcastInDim Cert.ReferenceIdeal.S1x128 ![1] Cert.ReferenceIdeal.Facts₀.bcast_S128_S1x128_1 v) :=
    fun v => Cert.LibDenseLayer.biasRow_eq (a := 500) (b := 128) v _ _ _ _
  have ei : ∀ v : FVec Ideal S128 .f32, rsqrt (addf (shapeCast S1x128 v shapeCasts_S128_S1x128) (broadcast S1x128 (Scalar.ofBits .f32 0x3727C5AC#32)))
        = shapeCast S1x128 (Host.rsqrt (addf v (broadcastInDim Cert.ReferenceIdeal.S128 ![] Cert.ReferenceIdeal.Facts₀.bcast_S_S128 (constant Cert.ReferenceIdeal.S_ .f32 0x3727C5AC#32)))) shapeCasts_S128_S1x128 := by
    intro v
    funext j
    obtain ⟨u, i, rfl⟩ : ∃ (u : Fin 1) (i : Fin 128), j = ix2 u i := ⟨j 0, j 1, eq_ix2 j⟩
    rw [shapeCast_a_1a_apply]
    show Ideal.rsqrt (shapeCast S1x128 v shapeCasts_S128_S1x128 (ix2 u i) + Ideal.ofBits .f32 0x3727C5AC#32) = _
    rw [shapeCast_a_1a_apply]
    rfl
  unfold k2_pay1 Cert.Spec.fp
  dsimp only
  rw [e1, ei, eb, eb, eb, eb, eb]
  rfl

/-- The printed index maps: at the one grid point every window's block index is zero on every axis. -/
theorem idx_facts2 : ∀ t : Fin cfg2.N, win2_0.index t (0 : Fin 2) = 0
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 1) = 0
    ∧ win2_4.index t (0 : Fin 1) = 0
    ∧ win2_5.index t (0 : Fin 1) = 0
    ∧ win2_6.index t (0 : Fin 1) = 0
    ∧ win2_7.index t (0 : Fin 2) = 0
    ∧ win2_7.index t (1 : Fin 2) = 0 :=
  (by decide +kernel : ∀ t : Fin grid2.N, _)

variable (V : (c : Dev nD) → (b : Ref sig .tc) → Buf (Elt Ideal) ((c : Thread nD τ).loc b))

/-- What the one point writes back is the reference's encoder of the arrays as the region finds them. -/
theorem flushed2_eq (c : Dev nD) (t : Fin cfg2.N) :
    (dat2 V c).flushed 7 t = ((cfg2.win 7).blk t).view.read (Elt Ideal)
      (Cert.Spec.fp (V c main_arg2) (V c main_arg10) (V c main_arg11) (V c main_arg12) (V c main_arg13) (V c main_arg14) (V c main_arg15)) := by
  show (cfg2.win 7).cut (grid2.coords t) ((dat2 V c).after 7 t) = _
  rw [after2_7]
  unfold out2_7
  rw [View.canon_unit_zero hz2]
  simp only [View.ld_unit_zero (S := S500x2048) hz2, View.ld_unit_zero (S := S2048x128) hz2, View.ld_unit_zero (S := S128) hz1]
  rw [pay2_eq]
  obtain ⟨e0, e1, e2, e3, e4, e5, e6, e7, e8, e9, e10⟩ := idx_facts2 t
  have hb0 : (iblk2 V c 0 t : Vec Ideal S500x2048 .f32) = V c main_arg2 := by
    funext y
    show V c main_arg2 (((cfg2.win 0).blk t).view.emb y) = V c main_arg2 y
    refine congrArg _ (funext fun a => Fin.ext ?_)
    match a with
      | ⟨0, _⟩ => show win2_0.index t (0 : Fin 2) * 500 + 1 * (y 0).val = (y 0).val; omega
      | ⟨1, _⟩ => show win2_0.index t (1 : Fin 2) * 2048 + 1 * (y 1).val = (y 1).val; omega
  have hb1 : (iblk2 V c 1 t : Vec Ideal S2048x128 .f32) = V c main_arg10 := by
    funext y
    show V c main_arg10 (((cfg2.win 1).blk t).view.emb y) = V c main_arg10 y
    refine congrArg _ (funext fun a => Fin.ext ?_)
    match a with
      | ⟨0, _⟩ => show win2_1.index t (0 : Fin 2) * 2048 + 1 * (y 0).val = (y 0).val; omega
      | ⟨1, _⟩ => show win2_1.index t (1 : Fin 2) * 128 + 1 * (y 1).val = (y 1).val; omega
  have hb2 : (iblk2 V c 2 t : Vec Ideal S128 .f32) = V c main_arg11 := by
    funext y
    show V c main_arg11 (((cfg2.win 2).blk t).view.emb y) = V c main_arg11 y
    refine congrArg _ (funext fun a => Fin.ext ?_)
    match a with
      | ⟨0, _⟩ => show win2_2.index t (0 : Fin 1) * 128 + 1 * (y 0).val = (y 0).val; omega
  have hb3 : (iblk2 V c 3 t : Vec Ideal S128 .f32) = V c main_arg12 := by
    funext y
    show V c main_arg12 (((cfg2.win 3).blk t).view.emb y) = V c main_arg12 y
    refine congrArg _ (funext fun a => Fin.ext ?_)
    match a with
      | ⟨0, _⟩ => show win2_3.index t (0 : Fin 1) * 128 + 1 * (y 0).val = (y 0).val; omega
  have hb4 : (iblk2 V c 4 t : Vec Ideal S128 .f32) = V c main_arg13 := by
    funext y
    show V c main_arg13 (((cfg2.win 4).blk t).view.emb y) = V c main_arg13 y
    refine congrArg _ (funext fun a => Fin.ext ?_)
    match a with
      | ⟨0, _⟩ => show win2_4.index t (0 : Fin 1) * 128 + 1 * (y 0).val = (y 0).val; omega
  have hb5 : (iblk2 V c 5 t : Vec Ideal S128 .f32) = V c main_arg14 := by
    funext y
    show V c main_arg14 (((cfg2.win 5).blk t).view.emb y) = V c main_arg14 y
    refine congrArg _ (funext fun a => Fin.ext ?_)
    match a with
      | ⟨0, _⟩ => show win2_5.index t (0 : Fin 1) * 128 + 1 * (y 0).val = (y 0).val; omega
  have hb6 : (iblk2 V c 6 t : Vec Ideal S128 .f32) = V c main_arg15 := by
    funext y
    show V c main_arg15 (((cfg2.win 6).blk t).view.emb y) = V c main_arg15 y
    refine congrArg _ (funext fun a => Fin.ext ?_)
    match a with
      | ⟨0, _⟩ => show win2_6.index t (0 : Fin 1) * 128 + 1 * (y 0).val = (y 0).val; omega
  rw [hb0, hb1, hb2, hb3, hb4, hb5, hb6]
  funext j
  show _ = Cert.Spec.fp (V c main_arg2) (V c main_arg10) (V c main_arg11) (V c main_arg12) (V c main_arg13) (V c main_arg14) (V c main_arg15) (((cfg2.win 7).blk t).view.emb j)
  refine congrArg (Cert.Spec.fp (V c main_arg2) (V c main_arg10) (V c main_arg11) (V c main_arg12) (V c main_arg13) (V c main_arg14) (V c main_arg15)) (funext fun a => Fin.ext ?_)
  match a with
  | ⟨0, _⟩ => show (j 0).val = win2_7.index t (0 : Fin 2) * 500 + 1 * (j 0).val; omega
  | ⟨1, _⟩ => show (j 1).val = win2_7.index t (1 : Fin 2) * 128 + 1 * (j 1).val; omega

/-- An index of the array is in the point's block iff each coordinate is in the block's range on its axis. -/
theorem mem_blk2 (t : Fin cfg2.N) (i : S500x128.Idx) :
    i ∈ ((cfg2.win 7).blk t).view.set ↔ ∀ a : Fin 2, win2_7.index t a * S500x128.size a ≤ (i a).val ∧ (i a).val < win2_7.index t a * S500x128.size a + S500x128.size a := by
  show i ∈ ((View.whole main_v16).slice (win2_7.rect t)).set ↔ _
  rw [View.set_slice_whole, Rect.mem_set_unit]
  exact Iff.rfl

/-- The one block is the whole array. -/
theorem cover2 (i : S500x128.Idx) : ∃ t : Fin cfg2.N, (cfg2.win 7).flush t = true ∧ i ∈ ((cfg2.win 7).blk t).view.set := by
  have hi0 : (i 0).val < 500 := (i 0).isLt
  have hi1 : (i 1).val < 128 := (i 1).isLt
  have hN : 0 < cfg2.N := by decide
  refine ⟨⟨0, hN⟩, flush2_7 _, ?_⟩
  obtain ⟨e0, e1, e2, e3, e4, e5, e6, e7, e8, e9, e10⟩ := idx_facts2 ⟨0, hN⟩
  rw [mem_blk2]
  intro a
  match a with
  | ⟨0, _⟩ => show win2_7.index ⟨0, hN⟩ (0 : Fin 2) * 500 ≤ (i 0).val ∧ (i 0).val < win2_7.index ⟨0, hN⟩ (0 : Fin 2) * 500 + 500; omega
  | ⟨1, _⟩ => show win2_7.index ⟨0, hN⟩ (1 : Fin 2) * 128 ≤ (i 1).val ∧ (i 1).val < win2_7.index ⟨0, hN⟩ (1 : Fin 2) * 128 + 128; omega

/-- The array the region leaves: the reference's encoder of the arrays as the region finds them. -/
theorem arr2 (c : Dev nD) :
    (dat2 V c).arrAt 7 cfg2.N = Cert.Spec.fp (V c main_arg2) (V c main_arg10) (V c main_arg11) (V c main_arg12) (V c main_arg13) (V c main_arg14) (V c main_arg15) :=
  (dat2 V c).arrAt_eq_of_cover 7 _ (fun t _ => flushed2_eq V c t) (cover2)

end Cert.KernelIdeal.Whole

end
-- ==== Proof.Region3.lean ====
/-
  The softmax-and-network region: one grid point, every block a whole array.  The body's stored value is, operation by
  operation, the reference's softmax followed by its three-layer network: the row maximum and the row sum are the host's
  reductions (−∞ is neutral for max, 0 for +), a reduced vector cast to a column and repeated across the columns is the
  host's two broadcasts, each matrix product into a zero accumulator is the host's product, each bias vector cast to a
  row and repeated down the rows is the host's two broadcasts, and the rest are the same entrywise operations.  So the
  [500, 256] array the region leaves is the reference's head of the arrays as the region finds them.
-/
import proofs.«138311_j32839319945356_2_alg».proof.Proof.Gen.KernelIdeal.Frame
import proofs.«138311_j32839319945356_2_alg».proof.Proof.Spec
import proofs.«138311_j32839319945356_2_alg».proof.Proof.LibDenseLayer
import proofs.«138311_j32839319945356_2_alg».proof.Proof.LibRowSoftmax
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

private theorem hz2 : (![0, 0] : Fin 2 → Nat) = fun _ => 0 := funext fun a => by fin_cases a <;> rfl
private theorem hz1 : (![0] : Fin 1 → Nat) = fun _ => 0 := funext fun a => by fin_cases a <;> rfl

/-- The body's stored value is the reference's network on the softmax of the pooled messages and the fingerprint embedding. -/
theorem pay3_eq (x0 : Vec Ideal S500x160 .f32) (x1 : Vec Ideal S500x128 .f32) (w0 : Vec Ideal S288x512 .f32) (b0 : Vec Ideal S512 .f32)
    (w1 : Vec Ideal S512x512 .f32) (b1 : Vec Ideal S512 .f32) (w2 : Vec Ideal S512x256 .f32) (b2 : Vec Ideal S256 .f32) :
    k3_pay1 (k3_pay2 x0 x1 w0 b0 w1 b1 w2) b2 = Cert.Spec.head (Cert.Spec.softmax x0) x1 w0 b0 w1 b1 w2 b2 := by
  have em1 : ∀ (A : FVec Ideal S500x288 .f32) (B : FVec Ideal S288x512 .f32),
      matmul dot_S500x288_S288x512_S500x512_1_0_0_1_n_n none (truncf .bf16 A bitsLt_bf16_f32) (truncf .bf16 B bitsLt_bf16_f32) (constant S500x512 .f32 0x00000000#32)
        = Host.dotGeneral Cert.ReferenceIdeal.dot_S500x288_S288x512_S500x512_1_0_0_1_n_n none A B :=
    fun A B => Cert.LibDenseLayer.matmul_zero_eq_dotGeneral (m := 500) (k := 288) (n := 512) none A B
  have em2 : ∀ (A : FVec Ideal S500x512 .f32) (B : FVec Ideal S512x512 .f32),
      matmul dot_S500x512_S512x512_S500x512_1_0_0_1_n_n none (truncf .bf16 A bitsLt_bf16_f32) (truncf .bf16 B bitsLt_bf16_f32) (constant S500x512 .f32 0x00000000#32)
        = Host.dotGeneral Cert.ReferenceIdeal.dot_S500x512_S512x512_S500x512_1_0_0_1_n_n none A B :=
    fun A B => Cert.LibDenseLayer.matmul_zero_eq_dotGeneral (m := 500) (k := 512) (n := 512) none A B
  have em3 : ∀ (A : FVec Ideal S500x512 .f32) (B : FVec Ideal S512x256 .f32),
      matmul dot_S500x512_S512x256_S500x256_1_0_0_1_n_n none (truncf .bf16 A bitsLt_bf16_f32) (truncf .bf16 B bitsLt_bf16_f32) (constant S500x256 .f32 0x00000000#32)
        = Host.dotGeneral Cert.ReferenceIdeal.dot_S500x512_S512x256_S500x256_1_0_0_1_n_n none A B :=
    fun A B => Cert.LibDenseLayer.matmul_zero_eq_dotGeneral (m := 500) (k := 512) (n := 256) none A B
  have eb512 : ∀ v : FVec Ideal S512 .f32, broadcastTo S500x512 (shapeCast S1x512 v shapeCasts_S512_S1x512) broadcasts_S1x512_S500x512
        = broadcastInDim Cert.ReferenceIdeal.S500x512 ![0, 1] Cert.ReferenceIdeal.Facts₀.bcast_S1x512_S500x512_0_1 (broadcastInDim Cert.ReferenceIdeal.S1x512 ![1] Cert.ReferenceIdeal.Facts₀.bcast_S512_S1x512_1 v) :=
    fun v => Cert.LibDenseLayer.biasRow_eq (a := 500) (b := 512) v _ _ _ _
  have eb256 : ∀ v : FVec Ideal S256 .f32, broadcastTo S500x256 (shapeCast S1x256 v shapeCasts_S256_S1x256) broadcasts_S1x256_S500x256
        = broadcastInDim Cert.ReferenceIdeal.S500x256 ![0, 1] Cert.ReferenceIdeal.Facts₀.bcast_S1x256_S500x256_0_1 (broadcastInDim Cert.ReferenceIdeal.S1x256 ![1] Cert.ReferenceIdeal.Facts₀.bcast_S256_S1x256_1 v) :=
    fun v => Cert.LibDenseLayer.biasRow_eq (a := 500) (b := 256) v _ _ _ _
  have ecol : ∀ v : FVec Ideal S500 .f32, broadcastTo S500x160 (shapeCast S500x1 v shapeCasts_S500_S500x1) broadcasts_S500x1_S500x160
        = broadcastInDim Cert.ReferenceIdeal.S500x160 ![0, 1] Cert.ReferenceIdeal.Facts₀.bcast_S500x1_S500x160_0_1 (broadcastInDim Cert.ReferenceIdeal.S500x1 ![0] Cert.ReferenceIdeal.Facts₀.bcast_S500_S500x1_0 v) :=
    fun v => Cert.LibRowSoftmax.column_eq (a := 500) (b := 160) v _ _ _ _
  have emax : ∀ src : FVec Ideal S500x160 .f32, multiReduction .maximumf [1] S500 src 0xFF800000#32 reduces_S500x160_S500 (.inl rfl) rfl
        = maximumf (broadcastInDim Cert.ReferenceIdeal.S500 ![] Cert.ReferenceIdeal.Facts₀.bcast_S_S500 (constant Cert.ReferenceIdeal.S_ .f32 0xFF800000#32))
            (Host.reduce FloatOps.maximumf src (constant Cert.ReferenceIdeal.S_ .f32 0xFF800000#32) Cert.ReferenceIdeal.Facts₀.reducesTo_S500x160_S500_d1 Cert.ReferenceIdeal.Facts₀.h_S_) :=
    fun src => Cert.LibRowSoftmax.rowMax_eq src reduces_S500x160_S500 Cert.ReferenceIdeal.Facts₀.reducesTo_S500x160_S500_d1 (.inl rfl) rfl Cert.ReferenceIdeal.Facts₀.h_S_ Cert.ReferenceIdeal.Facts₀.bcast_S_S500
  have esum : ∀ src : FVec Ideal S500x160 .f32, multiReduction .add [1] S500 src 0x00000000#32 reduces_S500x160_S500 (.inl rfl) rfl
        = Host.reduceAdd src (constant Cert.ReferenceIdeal.S_ .f32 0x00000000#32) Cert.ReferenceIdeal.Facts₀.reducesTo_S500x160_S500_d1 Cert.ReferenceIdeal.Facts₀.h_S_ :=
    fun src => Cert.LibRowSoftmax.rowSum_eq src reduces_S500x160_S500 Cert.ReferenceIdeal.Facts₀.reducesTo_S500x160_S500_d1 (.inl rfl) rfl Cert.ReferenceIdeal.Facts₀.h_S_
  unfold k3_pay1 k3_pay2 Cert.Spec.head Cert.Spec.softmax
  dsimp only
  rw [shapeCast_self, shapeCast_self, emax, esum, ecol, ecol, em1, em2, em3, eb512, eb512, eb256]
  rfl

/-- The printed index maps: at the one grid point every window's block index is zero on every axis. -/
theorem idx_facts3 : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 2) = 0
    ∧ win3_4.index t (1 : Fin 2) = 0
    ∧ win3_5.index t (0 : Fin 1) = 0
    ∧ win3_6.index t (0 : Fin 2) = 0
    ∧ win3_6.index t (1 : Fin 2) = 0
    ∧ win3_7.index t (0 : Fin 1) = 0
    ∧ win3_8.index t (0 : Fin 2) = 0
    ∧ win3_8.index t (1 : Fin 2) = 0 :=
  (by decide +kernel : ∀ t : Fin grid3.N, _)

variable (V : (c : Dev nD) → (b : Ref sig .tc) → Buf (Elt Ideal) ((c : Thread nD τ).loc b))

/-- What the one point writes back is the reference's head of the arrays as the region finds them. -/
theorem flushed3_eq (c : Dev nD) (t : Fin cfg3.N) :
    (dat3 V c).flushed 8 t = ((cfg3.win 8).blk t).view.read (Elt Ideal)
      (Cert.Spec.head (Cert.Spec.softmax (V c main_v15)) (V c main_v16) (V c main_arg16) (V c main_arg17) (V c main_arg18) (V c main_arg19) (V c main_arg20) (V c main_arg21)) := by
  show (cfg3.win 8).cut (grid3.coords t) ((dat3 V c).after 8 t) = _
  rw [after3_8]
  unfold out3_8
  rw [View.canon_unit_zero hz2]
  simp only [View.ld_unit_zero (S := S500x160) hz2, View.ld_unit_zero (S := S500x128) hz2, View.ld_unit_zero (S := S288x512) hz2, View.ld_unit_zero (S := S512x512) hz2, View.ld_unit_zero (S := S512x256) hz2,
    View.ld_unit_zero (S := S512) hz1, View.ld_unit_zero (S := S256) hz1]
  rw [pay3_eq]
  obtain ⟨e0, e1, e2, e3, e4, e5, e6, e7, e8, e9, e10, e11, e12, e13, e14⟩ := idx_facts3 t
  have hb0 : (iblk3 V c 0 t : Vec Ideal S500x160 .f32) = V c main_v15 := by
    funext y
    show V c main_v15 (((cfg3.win 0).blk t).view.emb y) = V c main_v15 y
    refine congrArg _ (funext fun a => Fin.ext ?_)
    match a with
      | ⟨0, _⟩ => show win3_0.index t (0 : Fin 2) * 500 + 1 * (y 0).val = (y 0).val; omega
      | ⟨1, _⟩ => show win3_0.index t (1 : Fin 2) * 160 + 1 * (y 1).val = (y 1).val; omega
  have hb1 : (iblk3 V c 1 t : Vec Ideal S500x128 .f32) = V c main_v16 := by
    funext y
    show V c main_v16 (((cfg3.win 1).blk t).view.emb y) = V c main_v16 y
    refine congrArg _ (funext fun a => Fin.ext ?_)
    match a with
      | ⟨0, _⟩ => show win3_1.index t (0 : Fin 2) * 500 + 1 * (y 0).val = (y 0).val; omega
      | ⟨1, _⟩ => show win3_1.index t (1 : Fin 2) * 128 + 1 * (y 1).val = (y 1).val; omega
  have hb2 : (iblk3 V c 2 t : Vec Ideal S288x512 .f32) = V c main_arg16 := by
    funext y
    show V c main_arg16 (((cfg3.win 2).blk t).view.emb y) = V c main_arg16 y
    refine congrArg _ (funext fun a => Fin.ext ?_)
    match a with
      | ⟨0, _⟩ => show win3_2.index t (0 : Fin 2) * 288 + 1 * (y 0).val = (y 0).val; omega
      | ⟨1, _⟩ => show win3_2.index t (1 : Fin 2) * 512 + 1 * (y 1).val = (y 1).val; omega
  have hb3 : (iblk3 V c 3 t : Vec Ideal S512 .f32) = V c main_arg17 := by
    funext y
    show V c main_arg17 (((cfg3.win 3).blk t).view.emb y) = V c main_arg17 y
    refine congrArg _ (funext fun a => Fin.ext ?_)
    match a with
      | ⟨0, _⟩ => show win3_3.index t (0 : Fin 1) * 512 + 1 * (y 0).val = (y 0).val; omega
  have hb4 : (iblk3 V c 4 t : Vec Ideal S512x512 .f32) = V c main_arg18 := by
    funext y
    show V c main_arg18 (((cfg3.win 4).blk t).view.emb y) = V c main_arg18 y
    refine congrArg _ (funext fun a => Fin.ext ?_)
    match a with
      | ⟨0, _⟩ => show win3_4.index t (0 : Fin 2) * 512 + 1 * (y 0).val = (y 0).val; omega
      | ⟨1, _⟩ => show win3_4.index t (1 : Fin 2) * 512 + 1 * (y 1).val = (y 1).val; omega
  have hb5 : (iblk3 V c 5 t : Vec Ideal S512 .f32) = V c main_arg19 := by
    funext y
    show V c main_arg19 (((cfg3.win 5).blk t).view.emb y) = V c main_arg19 y
    refine congrArg _ (funext fun a => Fin.ext ?_)
    match a with
      | ⟨0, _⟩ => show win3_5.index t (0 : Fin 1) * 512 + 1 * (y 0).val = (y 0).val; omega
  have hb6 : (iblk3 V c 6 t : Vec Ideal S512x256 .f32) = V c main_arg20 := by
    funext y
    show V c main_arg20 (((cfg3.win 6).blk t).view.emb y) = V c main_arg20 y
    refine congrArg _ (funext fun a => Fin.ext ?_)
    match a with
      | ⟨0, _⟩ => show win3_6.index t (0 : Fin 2) * 512 + 1 * (y 0).val = (y 0).val; omega
      | ⟨1, _⟩ => show win3_6.index t (1 : Fin 2) * 256 + 1 * (y 1).val = (y 1).val; omega
  have hb7 : (iblk3 V c 7 t : Vec Ideal S256 .f32) = V c main_arg21 := by
    funext y
    show V c main_arg21 (((cfg3.win 7).blk t).view.emb y) = V c main_arg21 y
    refine congrArg _ (funext fun a => Fin.ext ?_)
    match a with
      | ⟨0, _⟩ => show win3_7.index t (0 : Fin 1) * 256 + 1 * (y 0).val = (y 0).val; omega
  rw [hb0, hb1, hb2, hb3, hb4, hb5, hb6, hb7]
  funext j
  show _ = (Cert.Spec.head (Cert.Spec.softmax (V c main_v15)) (V c main_v16) (V c main_arg16) (V c main_arg17) (V c main_arg18) (V c main_arg19) (V c main_arg20) (V c main_arg21)) (((cfg3.win 8).blk t).view.emb j)
  refine congrArg (Cert.Spec.head (Cert.Spec.softmax (V c main_v15)) (V c main_v16) (V c main_arg16) (V c main_arg17) (V c main_arg18) (V c main_arg19) (V c main_arg20) (V c main_arg21)) (funext fun a => Fin.ext ?_)
  match a with
  | ⟨0, _⟩ => show (j 0).val = win3_8.index t (0 : Fin 2) * 500 + 1 * (j 0).val; omega
  | ⟨1, _⟩ => show (j 1).val = win3_8.index t (1 : Fin 2) * 256 + 1 * (j 1).val; omega

/-- An index of the array is in the point's block iff each coordinate is in the block's range on its axis. -/
theorem mem_blk3 (t : Fin cfg3.N) (i : S500x256.Idx) :
    i ∈ ((cfg3.win 8).blk t).view.set ↔ ∀ a : Fin 2, win3_8.index t a * S500x256.size a ≤ (i a).val ∧ (i a).val < win3_8.index t a * S500x256.size a + S500x256.size a := by
  show i ∈ ((View.whole main_v17).slice (win3_8.rect t)).set ↔ _
  rw [View.set_slice_whole, Rect.mem_set_unit]
  exact Iff.rfl

/-- The one block is the whole array. -/
theorem cover3 (i : S500x256.Idx) : ∃ t : Fin cfg3.N, (cfg3.win 8).flush t = true ∧ i ∈ ((cfg3.win 8).blk t).view.set := by
  have hi0 : (i 0).val < 500 := (i 0).isLt
  have hi1 : (i 1).val < 256 := (i 1).isLt
  have hN : 0 < cfg3.N := by decide
  refine ⟨⟨0, hN⟩, flush3_8 _, ?_⟩
  obtain ⟨e0, e1, e2, e3, e4, e5, e6, e7, e8, e9, e10, e11, e12, e13, e14⟩ := idx_facts3 ⟨0, hN⟩
  rw [mem_blk3]
  intro a
  match a with
  | ⟨0, _⟩ => show win3_8.index ⟨0, hN⟩ (0 : Fin 2) * 500 ≤ (i 0).val ∧ (i 0).val < win3_8.index ⟨0, hN⟩ (0 : Fin 2) * 500 + 500; omega
  | ⟨1, _⟩ => show win3_8.index ⟨0, hN⟩ (1 : Fin 2) * 256 ≤ (i 1).val ∧ (i 1).val < win3_8.index ⟨0, hN⟩ (1 : Fin 2) * 256 + 256; omega

/-- The array the region leaves: the reference's head of the arrays as the region finds them. -/
theorem arr3 (c : Dev nD) :
    (dat3 V c).arrAt 8 cfg3.N = Cert.Spec.head (Cert.Spec.softmax (V c main_v15)) (V c main_v16) (V c main_arg16) (V c main_arg17) (V c main_arg18) (V c main_arg19) (V c main_arg20) (V c main_arg21) :=
  (dat3 V c).arrAt_eq_of_cover 8 _ (fun t _ => flushed3_eq V c t) (cover3)

end Cert.KernelIdeal.Whole

end
-- ==== Proof.Fold.lean ====
/-
  Reading the result buffer off the run's fold.

  The buffer contents are folded through five segments: the node-embedding region, the edge-embedding region, the host's
  message passing and pooling, the fingerprint-encoder region and the softmax-and-network region.  No segment writes an
  argument array, so every region finds the arguments as launched; each region leaves the reference's stage of the arrays
  it finds; and the host operations between are the reference's own.  Walking the fold back from the result buffer
  therefore gives the reference's whole computation of the launch arguments.
-/
import proofs.«138311_j32839319945356_2_alg».proof.Proof.Gen.KernelIdeal.Frame
import proofs.«138311_j32839319945356_2_alg».proof.Proof.Spec
import proofs.«138311_j32839319945356_2_alg».proof.Proof.Region0
import proofs.«138311_j32839319945356_2_alg».proof.Proof.Region1
import proofs.«138311_j32839319945356_2_alg».proof.Proof.Region2
import proofs.«138311_j32839319945356_2_alg».proof.Proof.Region3
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## The arguments, as each segment finds them -/

theorem W1_arg1 (c : Dev nD) : W1 m ρ c (Proc.devRef .tc main_arg1) = m ((c : Thread nD τ).loc main_arg1) :=
  W1_of_ne m ρ c main_arg1 (by decide)
theorem W1_arg8 (c : Dev nD) : W1 m ρ c (Proc.devRef .tc main_arg8) = m ((c : Thread nD τ).loc main_arg8) :=
  W1_of_ne m ρ c main_arg8 (by decide)
theorem W1_arg9 (c : Dev nD) : W1 m ρ c (Proc.devRef .tc main_arg9) = m ((c : Thread nD τ).loc main_arg9) :=
  W1_of_ne m ρ c main_arg9 (by decide)

theorem W2_arg3 (c : Dev nD) : W2 m ρ c (Proc.devRef .tc main_arg3) = m ((c : Thread nD τ).loc main_arg3) :=
  (W2_of_ne m ρ c main_arg3 (by decide)).trans (W1_of_ne m ρ c main_arg3 (by decide))
theorem W2_arg4 (c : Dev nD) : W2 m ρ c (Proc.devRef .tc main_arg4) = m ((c : Thread nD τ).loc main_arg4) :=
  (W2_of_ne m ρ c main_arg4 (by decide)).trans (W1_of_ne m ρ c main_arg4 (by decide))
theorem W2_arg5 (c : Dev nD) : W2 m ρ c (Proc.devRef .tc main_arg5) = m ((c : Thread nD τ).loc main_arg5) :=
  (W2_of_ne m ρ c main_arg5 (by decide)).trans (W1_of_ne m ρ c main_arg5 (by decide))

theorem W3_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg2 (by decide)).trans (W1_of_ne m ρ c main_arg2 (by decide)))
theorem W3_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg10 (by decide)).trans (W1_of_ne m ρ c main_arg10 (by decide)))
theorem W3_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg11 (by decide)).trans (W1_of_ne m ρ c main_arg11 (by decide)))
theorem W3_arg12 (c : Dev nD) : W3 m ρ c (Proc.devRef .tc main_arg12) = m ((c : Thread nD τ).loc main_arg12) :=
  (StableHlo.after_of_forall_not_mem (b := Proc.devRef .tc main_arg12) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg12 (by decide)).trans (W1_of_ne m ρ c main_arg12 (by decide)))
theorem W3_arg13 (c : Dev nD) : W3 m ρ c (Proc.devRef .tc main_arg13) = m ((c : Thread nD τ).loc main_arg13) :=
  (StableHlo.after_of_forall_not_mem (b := Proc.devRef .tc main_arg13) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg13 (by decide)).trans (W1_of_ne m ρ c main_arg13 (by decide)))
theorem W3_arg14 (c : Dev nD) : W3 m ρ c (Proc.devRef .tc main_arg14) = m ((c : Thread nD τ).loc main_arg14) :=
  (StableHlo.after_of_forall_not_mem (b := Proc.devRef .tc main_arg14) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg14 (by decide)).trans (W1_of_ne m ρ c main_arg14 (by decide)))
theorem W3_arg15 (c : Dev nD) : W3 m ρ c (Proc.devRef .tc main_arg15) = m ((c : Thread nD τ).loc main_arg15) :=
  (StableHlo.after_of_forall_not_mem (b := Proc.devRef .tc main_arg15) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg15 (by decide)).trans (W1_of_ne m ρ c main_arg15 (by decide)))

theorem W4_arg16 (c : Dev nD) : W4 m ρ c (Proc.devRef .tc main_arg16) = m ((c : Thread nD τ).loc main_arg16) :=
  (W4_of_ne m ρ c main_arg16 (by decide)).trans ((StableHlo.after_of_forall_not_mem (b := Proc.devRef .tc main_arg16) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg16 (by decide)).trans (W1_of_ne m ρ c main_arg16 (by decide))))
theorem W4_arg17 (c : Dev nD) : W4 m ρ c (Proc.devRef .tc main_arg17) = m ((c : Thread nD τ).loc main_arg17) :=
  (W4_of_ne m ρ c main_arg17 (by decide)).trans ((StableHlo.after_of_forall_not_mem (b := Proc.devRef .tc main_arg17) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg17 (by decide)).trans (W1_of_ne m ρ c main_arg17 (by decide))))
theorem W4_arg18 (c : Dev nD) : W4 m ρ c (Proc.devRef .tc main_arg18) = m ((c : Thread nD τ).loc main_arg18) :=
  (W4_of_ne m ρ c main_arg18 (by decide)).trans ((StableHlo.after_of_forall_not_mem (b := Proc.devRef .tc main_arg18) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg18 (by decide)).trans (W1_of_ne m ρ c main_arg18 (by decide))))
theorem W4_arg19 (c : Dev nD) : W4 m ρ c (Proc.devRef .tc main_arg19) = m ((c : Thread nD τ).loc main_arg19) :=
  (W4_of_ne m ρ c main_arg19 (by decide)).trans ((StableHlo.after_of_forall_not_mem (b := Proc.devRef .tc main_arg19) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg19 (by decide)).trans (W1_of_ne m ρ c main_arg19 (by decide))))
theorem W4_arg20 (c : Dev nD) : W4 m ρ c (Proc.devRef .tc main_arg20) = m ((c : Thread nD τ).loc main_arg20) :=
  (W4_of_ne m ρ c main_arg20 (by decide)).trans ((StableHlo.after_of_forall_not_mem (b := Proc.devRef .tc main_arg20) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg20 (by decide)).trans (W1_of_ne m ρ c main_arg20 (by decide))))
theorem W4_arg21 (c : Dev nD) : W4 m ρ c (Proc.devRef .tc main_arg21) = m ((c : Thread nD τ).loc main_arg21) :=
  (W4_of_ne m ρ c main_arg21 (by decide)).trans ((StableHlo.after_of_forall_not_mem (b := Proc.devRef .tc main_arg21) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg21 (by decide)).trans (W1_of_ne m ρ c main_arg21 (by decide))))

/-! ## The stages -/

/-- After the node-embedding region (and untouched by the edge-embedding region) the node buffer holds the reference's
    node embeddings of the launch arguments. -/
theorem W2_node (c : Dev nD) : W2 m ρ c (Proc.devRef .tc main_v0) = Cert.Spec.node (m ((c : Thread nD τ).loc main_arg0)) (m ((c : Thread nD τ).loc main_arg6)) (m ((c : Thread nD τ).loc main_arg7)) :=
  (W2_of_ne m ρ c main_v0 (by decide)).trans ((W1_arr m ρ c 3).trans (arr0 (V0 m ρ) c))

/-- After the edge-embedding region the edge buffer holds the reference's edge embeddings of the launch arguments. -/
theorem W2_edge (c : Dev nD) : W2 m ρ c (Proc.devRef .tc main_v1) = Cert.Spec.edge (m ((c : Thread nD τ).loc main_arg1)) (m ((c : Thread nD τ).loc main_arg8)) (m ((c : Thread nD τ).loc main_arg9)) := by
  refine (W2_arr m ρ c 3).trans ((arr1 (V1 m ρ) c).trans ?_)
  show Cert.Spec.edge (W1 m ρ c (Proc.devRef .tc main_arg1)) (W1 m ρ c (Proc.devRef .tc main_arg8)) (W1 m ρ c (Proc.devRef .tc main_arg9)) = _
  rw [W1_arg1, W1_arg8, W1_arg9]

/-- The host operations between the regions are the reference's message passing and pooling, whatever the buffers hold
    when they start: the same eighteen operations on the two embeddings and the three index arrays. -/
theorem after_mol (Wv : Valuation τ sig (Elt Ideal)) : StableHlo.after hostOps2 Wv (Proc.devRef .tc main_v15)
    = Cert.Spec.mol (Wv (Proc.devRef .tc main_v0)) (Wv (Proc.devRef .tc main_v1)) (Wv (Proc.devRef .tc main_arg3))
        (Wv (Proc.devRef .tc main_arg4)) (Wv (Proc.devRef .tc main_arg5)) := by
  after_results_simp
  rfl

/-- The pooled messages after the host operations, of the buffers as the two embedding regions leave them. -/
theorem W3_mol (c : Dev nD) : W3 m ρ c (Proc.devRef .tc main_v15)
    = Cert.Spec.mol (W2 m ρ c (Proc.devRef .tc main_v0)) (W2 m ρ c (Proc.devRef .tc main_v1)) (W2 m ρ c (Proc.devRef .tc main_arg3))
        (W2 m ρ c (Proc.devRef .tc main_arg4)) (W2 m ρ c (Proc.devRef .tc main_arg5)) :=
  after_mol (W2 m ρ c)

/-- The pooled messages, as the last region finds them. -/
theorem W4_mol (c : Dev nD) : W4 m ρ c (Proc.devRef .tc main_v15)
    = Cert.Spec.mol (Cert.Spec.node (m ((c : Thread nD τ).loc main_arg0)) (m ((c : Thread nD τ).loc main_arg6)) (m ((c : Thread nD τ).loc main_arg7))) (Cert.Spec.edge (m ((c : Thread nD τ).loc main_arg1)) (m ((c : Thread nD τ).loc main_arg8)) (m ((c : Thread nD τ).loc main_arg9))) (m ((c : Thread nD τ).loc main_arg3)) (m ((c : Thread nD τ).loc main_arg4)) (m ((c : Thread nD τ).loc main_arg5)) := by
  rw [W4_of_ne m ρ c main_v15 (by decide), W3_mol, W2_node, W2_edge, W2_arg3, W2_arg4, W2_arg5]

/-- The fingerprint embedding, as the last region finds it. -/
theorem W4_fp (c : Dev nD) : W4 m ρ c (Proc.devRef .tc main_v16)
    = Cert.Spec.fp (m ((c : Thread nD τ).loc main_arg2)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m ρ c 7).trans ((arr2 (V3 m ρ) c).trans ?_)
  show Cert.Spec.fp (W3 m ρ c (Proc.devRef .tc main_arg2)) (W3 m ρ c (Proc.devRef .tc main_arg10)) (W3 m ρ c (Proc.devRef .tc main_arg11)) (W3 m ρ c (Proc.devRef .tc main_arg12)) (W3 m ρ c (Proc.devRef .tc main_arg13)) (W3 m ρ c (Proc.devRef .tc main_arg14)) (W3 m ρ c (Proc.devRef .tc main_arg15)) = _
  rw [W3_arg2, W3_arg10, W3_arg11, W3_arg12, W3_arg13, W3_arg14, W3_arg15]

/-- THE RESULT BUFFER after the run: the reference's whole computation of the launch arguments. -/
theorem W5_result (c : Dev nD) : W5 m ρ c (Proc.devRef .tc main_v17)
    = Cert.Spec.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W5_arr m ρ c 8).trans ((arr3 (V4 m ρ) c).trans ?_)
  show Cert.Spec.head (Cert.Spec.softmax (W4 m ρ c (Proc.devRef .tc main_v15))) (W4 m ρ c (Proc.devRef .tc main_v16)) (W4 m ρ c (Proc.devRef .tc main_arg16)) (W4 m ρ c (Proc.devRef .tc main_arg17)) (W4 m ρ c (Proc.devRef .tc main_arg18)) (W4 m ρ c (Proc.devRef .tc main_arg19)) (W4 m ρ c (Proc.devRef .tc main_arg20)) (W4 m ρ c (Proc.devRef .tc main_arg21)) = _
  rw [W4_mol, W4_fp, W4_arg16, W4_arg17, W4_arg18, W4_arg19, W4_arg20, W4_arg21]
  rfl

end Cert.KernelIdeal.Whole

end
-- ==== Proof.lean ====
/-
  A graph-network readout: the kernel program against its reference, equal over the extended reals.

  Both programs compute, from node and edge features, index arrays and weights:
  node embeddings x·W + b and edge embeddings x·W + b; for every edge the message (source node's embedding, edge's own
  embedding); the messages summed into their destination nodes and the nodes into their graphs; a row softmax of that;
  a fingerprint embedding relu(((x·W + b − mean)·rsqrt(var + ε))·γ + β); and a three-layer network on the two joined.

  The kernel program computes the four dense stages in four kernel regions (the two embeddings tiled over their rows,
  the encoder and the network in one block each) and the message passing in host operations between them; the reference
  computes everything in host operations.  At exact values a matrix product into a zero accumulator is the host's product,
  a row reduction is the host's reduction, a change of float format is the identity, and the layout operations agree entry
  by entry, so each region leaves exactly the reference's stage of the arrays it finds (Region0 … Region3); the host
  operations between are the same operations on both sides; and no argument array is ever written, so the result buffer
  read off the run's fold is the reference's whole computation of the launch arguments (Fold).  The reference's run ends at
  the same composition (Spec).  No finiteness of the inputs is used: the two sides are the same function of the arguments.

  The three frames are the generated ones (the reference's is its generated run with the result dropped); the
  idealization rewrote nothing, so that conjunct is trivial.
-/
import proofs.«138311_j32839319945356_2_alg».proof.Defs
import proofs.«138311_j32839319945356_2_alg».proof.Proof.Gen.Kernel
import proofs.«138311_j32839319945356_2_alg».proof.Proof.Gen.Kernel.Skeleton
import proofs.«138311_j32839319945356_2_alg».proof.Proof.Gen.Kernel.Launch
import proofs.«138311_j32839319945356_2_alg».proof.Proof.Gen.Kernel.Points
import proofs.«138311_j32839319945356_2_alg».proof.Proof.Gen.Kernel.Frame
import proofs.«138311_j32839319945356_2_alg».proof.Proof.Gen.KernelIdeal
import proofs.«138311_j32839319945356_2_alg».proof.Proof.Gen.KernelIdeal.Skeleton
import proofs.«138311_j32839319945356_2_alg».proof.Proof.Gen.KernelIdeal.Launch
import proofs.«138311_j32839319945356_2_alg».proof.Proof.Gen.KernelIdeal.Points
import proofs.«138311_j32839319945356_2_alg».proof.Proof.Gen.KernelIdeal.Frame
import proofs.«138311_j32839319945356_2_alg».proof.Proof.Gen.ReferenceIdeal
import proofs.«138311_j32839319945356_2_alg».proof.Proof.Gen.Pre_finite_inputs
import proofs.«138311_j32839319945356_2_alg».proof.Proof.RefRun
import proofs.«138311_j32839319945356_2_alg».proof.Proof.KernelRun
import proofs.«138311_j32839319945356_2_alg».proof.Proof.Spec
import proofs.«138311_j32839319945356_2_alg».proof.Proof.SpecRun
import proofs.«138311_j32839319945356_2_alg».proof.Proof.Fold
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel's run: every weakly fair execution terminates with the result buffer at the reference's whole
    computation of the launch arguments (the result buffer read off the run's fold) and the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v17)
        = Cert.Spec.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)) :=
  (θ_run Cert.KernelIdeal.defs _ _).mono
    (fun r h c => ⟨(h c).1.trans (Cert.KernelIdeal.Whole.W5_result m ρ c), (h c).2⟩)
    (Cert.KernelIdeal.Whole.run_named (F := Ideal) m ρ)

/-- From memories agreeing on the arguments both programs end with the result at the reference's whole computation of the
    arguments: the kernel's result buffer read off its fold, the reference's composed term, the arguments' agreement. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.Spec.result_eq]
  obtain ⟨h0, h1, h2, h3, h4, h5, h6, h7, h8, h9, h10, h11, h12, h13, h14, h15, h16, h17, h18, h19, h20, h21⟩ := hagree c
  rw [h0, h1, h2, h3, h4, h5, h6, h7, h8, h9, h10, h11, h12, h13, h14, h15, h16, h17, h18, h19, h20, h21]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
